-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel

variable [Facts]

def fn {F : FTy → Type} [FloatOps F] (main_arg0 : FVec F S8x3x1024x1024 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  main_v3
-- ==== Kernel.lean ====
abbrev S8x3x1024x1024 : Shape := ⟨4, ![8, 3, 1024, 1024]⟩
abbrev S24x1024x1024 : Shape := ⟨3, ![24, 1024, 1024]⟩
abbrev S1x1024x1024 : Shape := ⟨3, ![1, 1024, 1024]⟩
abbrev S1048x1024 : Shape := ⟨2, ![1048, 1024]⟩
abbrev S1024x1152 : Shape := ⟨2, ![1024, 1152]⟩
abbrev S1024x1024 : Shape := ⟨2, ![1024, 1024]⟩
abbrev S11x1024 : Shape := ⟨2, ![11, 1024]⟩
abbrev S10x1024 : Shape := ⟨2, ![10, 1024]⟩
abbrev S1024x11 : Shape := ⟨2, ![1024, 11]⟩
abbrev S1024x10 : Shape := ⟨2, ![1024, 10]⟩

abbrev nBuf : Space → Nat
  | .hbm => 4
  | .vmem => 7
  | .smem => 0
  | _ => 0

abbrev bufTy : (tb : Table) → Fin (tcTables nBuf tb) → BufTy
  | .hbm, ⟨0, _⟩ => ⟨S8x3x1024x1024, .f32⟩
  | .hbm, ⟨1, _⟩ => ⟨S24x1024x1024, .f32⟩
  | .hbm, ⟨2, _⟩ => ⟨S24x1024x1024, .f32⟩
  | .hbm, ⟨3, _⟩ => ⟨S8x3x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1048x1024, .f32⟩
  | .local _ .vmem, ⟨5, _⟩ => ⟨S1024x1152, .f32⟩
  | .local _ .vmem, ⟨6, _⟩ => ⟨S1024x1024, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x3x1024x1024_S24x1024x1024 : S8x3x1024x1024.ShapeCasts S24x1024x1024
  inb_S1048x1024_S11x1024_0_0 : ∀ a, (![0, 0] : Fin 2 → Nat) a + S11x1024.size a ≤ S1048x1024.size a
  h_S11x1024 : 0 < S11x1024.numel
  shapeCasts_S11x1024_S11x1024 : S11x1024.ShapeCasts S11x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1048x1024_S1024x1024_11_0 : ∀ a, (![11, 0] : Fin 2 → Nat) a + S1024x1024.size a ≤ S1048x1024.size a
  h_S1024x1024 : 0 < S1024x1024.numel
  shapeCasts_S1024x1024_S1024x1024 : S1024x1024.ShapeCasts S1024x1024
  inb_S1048x1024_S10x1024_1035_0 : ∀ a, (![1035, 0] : Fin 2 → Nat) a + S10x1024.size a ≤ S1048x1024.size a
  h_S10x1024 : 0 < S10x1024.numel
  shapeCasts_S10x1024_S10x1024 : S10x1024.ShapeCasts S10x1024
  inb_S1048x1024_S1024x1024_0_0 : ∀ a, (![0, 0] : Fin 2 → Nat) a + S1024x1024.size a ≤ S1048x1024.size a
  inb_S1048x1024_S1024x1024_1_0 : ∀ a, (![1, 0] : Fin 2 → Nat) a + S1024x1024.size a ≤ S1048x1024.size a
  inb_S1048x1024_S1024x1024_2_0 : ∀ a, (![2, 0] : Fin 2 → Nat) a + S1024x1024.size a ≤ S1048x1024.size a
  inb_S1048x1024_S1024x1024_3_0 : ∀ a, (![3, 0] : Fin 2 → Nat) a + S1024x1024.size a ≤ S1048x1024.size a
  inb_S1048x1024_S1024x1024_4_0 : ∀ a, (![4, 0] : Fin 2 → Nat) a + S1024x1024.size a ≤ S1048x1024.size a
  inb_S1048x1024_S1024x1024_5_0 : ∀ a, (![5, 0] : Fin 2 → Nat) a + S1024x1024.size a ≤ S1048x1024.size a
  inb_S1048x1024_S1024x1024_6_0 : ∀ a, (![6, 0] : Fin 2 → Nat) a + S1024x1024.size a ≤ S1048x1024.size a
  inb_S1048x1024_S1024x1024_7_0 : ∀ a, (![7, 0] : Fin 2 → Nat) a + S1024x1024.size a ≤ S1048x1024.size a
  inb_S1048x1024_S1024x1024_8_0 : ∀ a, (![8, 0] : Fin 2 → Nat) a + S1024x1024.size a ≤ S1048x1024.size a
  inb_S1048x1024_S1024x1024_9_0 : ∀ a, (![9, 0] : Fin 2 → Nat) a + S1024x1024.size a ≤ S1048x1024.size a
  inb_S1048x1024_S1024x1024_10_0 : ∀ a, (![10, 0] : Fin 2 → Nat) a + S1024x1024.size a ≤ S1048x1024.size a
  inb_S1048x1024_S1024x1024_12_0 : ∀ a, (![12, 0] : Fin 2 → Nat) a + S1024x1024.size a ≤ S1048x1024.size a
  inb_S1048x1024_S1024x1024_13_0 : ∀ a, (![13, 0] : Fin 2 → Nat) a + S1024x1024.size a ≤ S1048x1024.size a
  inb_S1048x1024_S1024x1024_14_0 : ∀ a, (![14, 0] : Fin 2 → Nat) a + S1024x1024.size a ≤ S1048x1024.size a
  inb_S1048x1024_S1024x1024_15_0 : ∀ a, (![15, 0] : Fin 2 → Nat) a + S1024x1024.size a ≤ S1048x1024.size a
  inb_S1048x1024_S1024x1024_16_0 : ∀ a, (![16, 0] : Fin 2 → Nat) a + S1024x1024.size a ≤ S1048x1024.size a
  inb_S1048x1024_S1024x1024_17_0 : ∀ a, (![17, 0] : Fin 2 → Nat) a + S1024x1024.size a ≤ S1048x1024.size a
  inb_S1048x1024_S1024x1024_18_0 : ∀ a, (![18, 0] : Fin 2 → Nat) a + S1024x1024.size a ≤ S1048x1024.size a
  inb_S1048x1024_S1024x1024_19_0 : ∀ a, (![19, 0] : Fin 2 → Nat) a + S1024x1024.size a ≤ S1048x1024.size a
  inb_S1048x1024_S1024x1024_20_0 : ∀ a, (![20, 0] : Fin 2 → Nat) a + S1024x1024.size a ≤ S1048x1024.size a
  inb_S1048x1024_S1024x1024_21_0 : ∀ a, (![21, 0] : Fin 2 → Nat) a + S1024x1024.size a ≤ S1048x1024.size a
  inb_S1024x1024_S1024x1024_0_0 : ∀ a, (![0, 0] : Fin 2 → Nat) a + S1024x1024.size a ≤ S1024x1024.size a
  inb_S1024x1152_S1024x11_0_0 : ∀ a, (![0, 0] : Fin 2 → Nat) a + S1024x11.size a ≤ S1024x1152.size a
  h_S1024x11 : 0 < S1024x11.numel
  shapeCasts_S1024x11_S1024x11 : S1024x11.ShapeCasts S1024x11
  inb_S1024x1152_S1024x1024_0_11 : ∀ a, (![0, 11] : Fin 2 → Nat) a + S1024x1024.size a ≤ S1024x1152.size a
  inb_S1024x1152_S1024x10_0_1035 : ∀ a, (![0, 1035] : Fin 2 → Nat) a + S1024x10.size a ≤ S1024x1152.size a
  h_S1024x10 : 0 < S1024x10.numel
  shapeCasts_S1024x10_S1024x10 : S1024x10.ShapeCasts S1024x10
  inb_S1024x1152_S1024x1024_0_0 : ∀ a, (![0, 0] : Fin 2 → Nat) a + S1024x1024.size a ≤ S1024x1152.size a
  inb_S1024x1152_S1024x1024_0_1 : ∀ a, (![0, 1] : Fin 2 → Nat) a + S1024x1024.size a ≤ S1024x1152.size a
  inb_S1024x1152_S1024x1024_0_2 : ∀ a, (![0, 2] : Fin 2 → Nat) a + S1024x1024.size a ≤ S1024x1152.size a
  inb_S1024x1152_S1024x1024_0_3 : ∀ a, (![0, 3] : Fin 2 → Nat) a + S1024x1024.size a ≤ S1024x1152.size a
  inb_S1024x1152_S1024x1024_0_4 : ∀ a, (![0, 4] : Fin 2 → Nat) a + S1024x1024.size a ≤ S1024x1152.size a
  inb_S1024x1152_S1024x1024_0_5 : ∀ a, (![0, 5] : Fin 2 → Nat) a + S1024x1024.size a ≤ S1024x1152.size a
  inb_S1024x1152_S1024x1024_0_6 : ∀ a, (![0, 6] : Fin 2 → Nat) a + S1024x1024.size a ≤ S1024x1152.size a
  inb_S1024x1152_S1024x1024_0_7 : ∀ a, (![0, 7] : Fin 2 → Nat) a + S1024x1024.size a ≤ S1024x1152.size a
  inb_S1024x1152_S1024x1024_0_8 : ∀ a, (![0, 8] : Fin 2 → Nat) a + S1024x1024.size a ≤ S1024x1152.size a
  inb_S1024x1152_S1024x1024_0_9 : ∀ a, (![0, 9] : Fin 2 → Nat) a + S1024x1024.size a ≤ S1024x1152.size a
  inb_S1024x1152_S1024x1024_0_10 : ∀ a, (![0, 10] : Fin 2 → Nat) a + S1024x1024.size a ≤ S1024x1152.size a
  inb_S1024x1152_S1024x1024_0_12 : ∀ a, (![0, 12] : Fin 2 → Nat) a + S1024x1024.size a ≤ S1024x1152.size a
  inb_S1024x1152_S1024x1024_0_13 : ∀ a, (![0, 13] : Fin 2 → Nat) a + S1024x1024.size a ≤ S1024x1152.size a
  inb_S1024x1152_S1024x1024_0_14 : ∀ a, (![0, 14] : Fin 2 → Nat) a + S1024x1024.size a ≤ S1024x1152.size a
  inb_S1024x1152_S1024x1024_0_15 : ∀ a, (![0, 15] : Fin 2 → Nat) a + S1024x1024.size a ≤ S1024x1152.size a
  inb_S1024x1152_S1024x1024_0_16 : ∀ a, (![0, 16] : Fin 2 → Nat) a + S1024x1024.size a ≤ S1024x1152.size a
  inb_S1024x1152_S1024x1024_0_17 : ∀ a, (![0, 17] : Fin 2 → Nat) a + S1024x1024.size a ≤ S1024x1152.size a
  inb_S1024x1152_S1024x1024_0_18 : ∀ a, (![0, 18] : Fin 2 → Nat) a + S1024x1024.size a ≤ S1024x1152.size a
  inb_S1024x1152_S1024x1024_0_19 : ∀ a, (![0, 19] : Fin 2 → Nat) a + S1024x1024.size a ≤ S1024x1152.size a
  inb_S1024x1152_S1024x1024_0_20 : ∀ a, (![0, 20] : Fin 2 → Nat) a + S1024x1024.size a ≤ S1024x1152.size a
  inb_S1024x1152_S1024x1024_0_21 : ∀ a, (![0, 21] : Fin 2 → Nat) a + S1024x1024.size a ≤ S1024x1152.size a
  shapeCasts_S1024x1024_S1x1024x1024 : S1024x1024.ShapeCasts S1x1024x1024
  shapeCasts_S24x1024x1024_S8x3x1024x1024 : S24x1024x1024.ShapeCasts S8x3x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S24x1024x1024.size a
  hwx0_0 : ∀ i : grid0.Coords, EltTy.bits .f32 = 32 ∨ (Rect.block (s := S24x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S24x1024x1024.size a
  hwx0_1 : ∀ i : grid0.Coords, EltTy.bits .f32 = 32 ∨ (Rect.block (s := S24x1024x1024) S1x1024x1024.size (cc0_transform_1 i) (hinb0_1 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x3x1024x1024 : Shape := ⟨4, ![8, 3, 1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8x3x1024x1024, .f32⟩
  | .hbm, ⟨1, _⟩ => ⟨S_, .f32⟩
  | .hbm, ⟨2, _⟩ => ⟨S_, .f32⟩
  | .hbm, ⟨3, _⟩ => ⟨S8x3x1024x1024, .f32⟩
  | .hbm, ⟨4, _⟩ => ⟨S_, .f32⟩
  | .hbm, ⟨5, _⟩ => ⟨S_, .f32⟩
  | .hbm, ⟨6, _⟩ => ⟨S8x3x1024x1024, .f32⟩
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x3x1024x1024_S8x3x1024x1024_w1s1p0_0_w1s1p0_0_w22s1p11_10_w22s1p11_10 : S8x3x1024x1024.ReduceWindows (![1, 1, 22, 22] : Fin 4 → Nat) ![1, 1, 1, 1] ![0, 0, 11, 11] ![0, 0, 10, 10] S8x3x1024x1024
  h_S_ : 0 < S_.numel

variable [Facts₀]

class Facts : Prop extends Facts₀ where

variable [Facts]
-- ==== Proof.Separable.lean ====
/-
  The mathematics of the opening: a 22 × 22 window minimum (maximum) over an image padded with the
  top (bottom) element — 11 positions before, 10 after, on both axes — is the 22-window minimum
  along the columns of the 22-window minimum along the rows, each pass over its own padding.

  Images are total functions `ℕ → ℕ → α` into a complete lattice; only their values on
  `[0, 1024) × [0, 1024)` matter (the `_congr` lemmas). A padded coordinate `p` reads the image at
  `p - 11` when `11 ≤ p < 1035` and the padding value otherwise.
-/
import Mathlib.Order.CompleteLattice.Basic

namespace Cert.Opening

variable {α : Type*} [CompleteLattice α]

/-- The image padded along the rows with `v`. -/
def padR (v : α) (X : ℕ → ℕ → α) (i j : ℕ) : α := if 11 ≤ i ∧ i < 1035 then X (i - 11) j else v
/-- The image padded along the columns with `v`. -/
def padC (v : α) (X : ℕ → ℕ → α) (i j : ℕ) : α := if 11 ≤ j ∧ j < 1035 then X i (j - 11) else v
/-- The image padded on both axes with `v`. -/
def pad2 (v : α) (X : ℕ → ℕ → α) (i j : ℕ) : α :=
  if (11 ≤ i ∧ i < 1035) ∧ (11 ≤ j ∧ j < 1035) then X (i - 11) (j - 11) else v

/-- The minimum of 22 consecutive rows. -/
def minR (Y : ℕ → ℕ → α) (r c : ℕ) : α := ⨅ k < 22, Y (r + k) c
/-- The minimum of 22 consecutive columns. -/
def minC (Y : ℕ → ℕ → α) (r c : ℕ) : α := ⨅ k < 22, Y r (c + k)
/-- The maximum of 22 consecutive rows. -/
def maxR (Y : ℕ → ℕ → α) (r c : ℕ) : α := ⨆ k < 22, Y (r + k) c
/-- The maximum of 22 consecutive columns. -/
def maxC (Y : ℕ → ℕ → α) (r c : ℕ) : α := ⨆ k < 22, Y r (c + k)

/-- Erosion: the minimum over the 22 × 22 window of the image padded with the top element. -/
def erode2 (X : ℕ → ℕ → α) (r c : ℕ) : α := ⨅ kh < 22, ⨅ kw < 22, pad2 ⊤ X (r + kh) (c + kw)
/-- Dilation: the maximum over the 22 × 22 window of the image padded with the bottom element. -/
def dilate2 (X : ℕ → ℕ → α) (r c : ℕ) : α := ⨆ kh < 22, ⨆ kw < 22, pad2 ⊥ X (r + kh) (c + kw)

/-- The four one-dimensional passes: erode along rows, then columns; dilate along rows, then columns. -/
def passes (X : ℕ → ℕ → α) : ℕ → ℕ → α :=
  maxC (padC ⊥ (maxR (padR ⊥ (minC (padC ⊤ (minR (padR ⊤ X)))))))

/-- The erosion is separable: padding with the top element commutes with the infimum over the rows. -/
theorem erode_sep (X : ℕ → ℕ → α) (r c : ℕ) : minC (padC ⊤ (minR (padR ⊤ X))) r c = erode2 X r c := by
  unfold minC padC minR padR erode2 pad2
  have h : ∀ kw, (if 11 ≤ c + kw ∧ c + kw < 1035 then
        ⨅ kh < 22, (if 11 ≤ r + kh ∧ r + kh < 1035 then X (r + kh - 11) (c + kw - 11) else ⊤) else ⊤)
      = ⨅ kh < 22, (if (11 ≤ r + kh ∧ r + kh < 1035) ∧ (11 ≤ c + kw ∧ c + kw < 1035) then
          X (r + kh - 11) (c + kw - 11) else ⊤) := by
    intro kw
    split_ifs with h <;> simp [h]
  simp only [h]
  exact iInf₂_comm _

/-- The dilation is separable: padding with the bottom element commutes with the supremum over the rows. -/
theorem dilate_sep (X : ℕ → ℕ → α) (r c : ℕ) : maxC (padC ⊥ (maxR (padR ⊥ X))) r c = dilate2 X r c := by
  unfold maxC padC maxR padR dilate2 pad2
  have h : ∀ kw, (if 11 ≤ c + kw ∧ c + kw < 1035 then
        ⨆ kh < 22, (if 11 ≤ r + kh ∧ r + kh < 1035 then X (r + kh - 11) (c + kw - 11) else ⊥) else ⊥)
      = ⨆ kh < 22, (if (11 ≤ r + kh ∧ r + kh < 1035) ∧ (11 ≤ c + kw ∧ c + kw < 1035) then
          X (r + kh - 11) (c + kw - 11) else ⊥) := by
    intro kw
    split_ifs with h <;> simp [h]
  simp only [h]
  exact iSup₂_comm _

/-- The four passes are the dilation of the erosion. -/
theorem passes_eq (X : ℕ → ℕ → α) (r c : ℕ) : passes X r c = dilate2 (erode2 X) r c := by
  unfold passes
  rw [dilate_sep]
  congr 1
  funext i j
  exact erode_sep X i j

/-- The dilation reads its image on `[0, 1024) × [0, 1024)` only. -/
theorem dilate2_congr {Y Y' : ℕ → ℕ → α} (h : ∀ i j, i < 1024 → j < 1024 → Y i j = Y' i j) (r c : ℕ) :
    dilate2 Y r c = dilate2 Y' r c := by
  unfold dilate2 pad2
  refine biSup_congr fun kh _ => biSup_congr fun kw _ => ?_
  split_ifs with hp
  · exact h _ _ (by omega) (by omega)
  · rfl

/-- The erosion reads its image on `[0, 1024) × [0, 1024)` only. -/
theorem erode2_congr {Y Y' : ℕ → ℕ → α} (h : ∀ i j, i < 1024 → j < 1024 → Y i j = Y' i j) (r c : ℕ) :
    erode2 Y r c = erode2 Y' r c := by
  unfold erode2 pad2
  refine biInf_congr fun kh _ => biInf_congr fun kw _ => ?_
  split_ifs with hp
  · exact h _ _ (by omega) (by omega)
  · rfl

/-- The row padding reads its image on `[0, 1024) × [0, 1024)` only, at a column below 1024. -/
theorem padR_congr {Y Y' : ℕ → ℕ → α} (h : ∀ i j, i < 1024 → j < 1024 → Y i j = Y' i j) (v : α) (i : ℕ) {j : ℕ}
    (hj : j < 1024) : padR v Y i j = padR v Y' i j := by
  unfold padR
  split_ifs with hp
  · exact h _ _ (by omega) hj
  · rfl

/-- The column padding reads its image on `[0, 1024) × [0, 1024)` only, at a row below 1024. -/
theorem padC_congr {Y Y' : ℕ → ℕ → α} (h : ∀ i j, i < 1024 → j < 1024 → Y i j = Y' i j) (v : α) {i : ℕ}
    (hi : i < 1024) (j : ℕ) : padC v Y i j = padC v Y' i j := by
  unfold padC
  split_ifs with hp
  · exact h _ _ hi (by omega)
  · rfl

end Cert.Opening
-- ==== Proof.BodyLib.lean ====
/-
  Reading a two-dimensional buffer that a body fills by rectangular stores and reads back by
  shifted rectangular loads.

  `at2 P i j` is the buffer's value at row `i`, column `j` (zero outside the buffer), so that rows
  and columns are plain naturals. Under one more store into the rectangle at offset `(o0, o1)` of
  extents `(m0, m1)` the buffer reads the stored value inside the rectangle and what it held
  before outside it (`at2_canon_cons`); a load of a rectangle at offset `(k0, k1)` reads, at
  `(r, c)`, the buffer at `(r + k0, c + k1)` (`readCov_shift`). A buffer filled by three stores —
  `v` on rows `[0, 11)`, an image on rows `[11, 1035)`, `v` on rows `[1035, 1045)` — is the image
  padded along the rows (`at2_rows3`), and likewise along the columns (`at2_cols3`).
-/
import Idealize.ShloMosaic.Lib.Pipeline.Value
import Idealize.ShloMosaic.Lib.ValueIdx
import proofs.«148447_j11879879543238_1_alg».proof.Proof.Separable

noncomputable section

namespace Cert.BodyLib

open Idealize.ShloMosaic Idealize.ShloMosaic.ValueIdx Cert.Opening

/-- The buffer's value at row `i`, column `j`; zero outside the buffer. -/
def at2 {n0 n1 : ℕ} (P : (⟨2, ![n0, n1]⟩ : Shape).Idx → EReal) (i j : ℕ) : EReal :=
  if h : i < n0 ∧ j < n1 then P (ix2 ⟨i, h.1⟩ ⟨j, h.2⟩) else 0

theorem at2_of_lt {n0 n1 : ℕ} (P : (⟨2, ![n0, n1]⟩ : Shape).Idx → EReal) {i j : ℕ} (hi : i < n0) (hj : j < n1) :
    at2 P i j = P (ix2 ⟨i, hi⟩ ⟨j, hj⟩) := dif_pos ⟨hi, hj⟩

theorem at2_ix2 {n0 n1 : ℕ} (P : (⟨2, ![n0, n1]⟩ : Shape).Idx → EReal) (i : Fin n0) (j : Fin n1) :
    at2 P i j = P (ix2 i j) := at2_of_lt P i.isLt j.isLt

/-- Under one more store the buffer reads the stored value inside the store's rectangle, and what it
    held before outside it. -/
theorem at2_canon_cons {n0 n1 m0 m1 o0 o1 : ℕ}
    (inb : ∀ a, (![o0, o1] : Fin 2 → ℕ) a + (![m0, m1] : Fin 2 → ℕ) a ≤ (⟨2, ![n0, n1]⟩ : Shape).size a)
    (w : (⟨2, ![m0, m1]⟩ : Shape).Idx → EReal)
    (L : List (View.Piece (Elt Ideal) (⟨2, ![n0, n1]⟩ : Shape) .f32)) {i j : ℕ} (hi : i < n0) (hj : j < n1) :
    at2 (View.canon ((⟨Rect.unit ![o0, o1] ![m0, m1] inb, w⟩ : View.Piece (Elt Ideal) (⟨2, ![n0, n1]⟩ : Shape) .f32) :: L)) i j
      = if (o0 ≤ i ∧ i < o0 + m0) ∧ (o1 ≤ j ∧ j < o1 + m1) then at2 w (i - o0) (j - o1)
        else at2 (View.canon L) i j := by
  rw [at2_of_lt _ hi hj]
  split_ifs with h
  · obtain ⟨⟨h1, h2⟩, h3, h4⟩ := h
    rw [at2_of_lt w (show i - o0 < m0 by omega) (show j - o1 < m1 by omega)]
    have e : (ix2 ⟨i, hi⟩ ⟨j, hj⟩ : (⟨2, ![n0, n1]⟩ : Shape).Idx)
        = (Rect.unit (s := ⟨2, ![n0, n1]⟩) ![o0, o1] ![m0, m1] inb).emb
            (ix2 ⟨i - o0, by omega⟩ ⟨j - o1, by omega⟩) := by
      funext a
      match a with
      | ⟨0, _⟩ => exact Fin.ext (show i = o0 + 1 * (i - o0) by omega)
      | ⟨1, _⟩ => exact Fin.ext (show j = o1 + 1 * (j - o1) by omega)
    rw [e]
    exact View.canon_cons_emb (Rect.unit (s := ⟨2, ![n0, n1]⟩) ![o0, o1] ![m0, m1] inb) w L _
  · rw [at2_of_lt _ hi hj]
    refine View.canon_cons_of_not_mem _ L ?_
    rw [Rect.mem_set_unit]
    intro hm
    apply h
    have h0 := hm 0
    have h1 := hm 1
    exact ⟨⟨h0.1, h0.2⟩, h1.1, h1.2⟩

/-- A load of the rectangle at offset `(k0, k1)` reads, at `(r, c)`, the buffer at `(r + k0, c + k1)`. -/
theorem readCov_shift {sig : RefSig} {κ : Kind} {sp : Space} {n0 n1 m0 m1 k0 k1 : ℕ}
    (v : View sig κ sp (⟨2, ![n0, n1]⟩ : Shape) .f32)
    (L : List (View.Piece (Elt Ideal) (⟨2, ![n0, n1]⟩ : Shape) .f32))
    (inb : ∀ a, (![k0, k1] : Fin 2 → ℕ) a + (![m0, m1] : Fin 2 → ℕ) a ≤ (⟨2, ![n0, n1]⟩ : Shape).size a)
    (r : Fin m0) (c : Fin m1) :
    v.readCov L (Rect.unit (s := ⟨2, ![n0, n1]⟩) ![k0, k1] ![m0, m1] inb).toLoadRect (ix2 r c) = at2 (View.canon L) (r + k0) (c + k1) := by
  have h0 : k0 + m0 ≤ n0 := inb 0
  have h1 : k1 + m1 ≤ n1 := inb 1
  rw [View.readCov_eq_canon', at2_of_lt _ (show r.val + k0 < n0 by omega) (show c.val + k1 < n1 by omega)]
  refine congrArg (View.canon L) (funext fun a => ?_)
  match a with
  | ⟨0, _⟩ => exact Fin.ext (show k0 + 1 * r.val = r.val + k0 by omega)
  | ⟨1, _⟩ => exact Fin.ext (show k1 + 1 * c.val = c.val + k1 by omega)

/-- A buffer of 1048 rows filled by three stores — `hi = v` on rows `[1035, 1045)`, the image `mid` on rows
    `[11, 1035)`, `lo = v` on rows `[0, 11)`, the last first — reads, on its first 1045 rows, the image padded along
    the rows with `v`, whatever it held before. -/
theorem at2_rows3 (v : EReal) (hi : (⟨2, ![10, 1024]⟩ : Shape).Idx → EReal) (mid : (⟨2, ![1024, 1024]⟩ : Shape).Idx → EReal)
    (lo : (⟨2, ![11, 1024]⟩ : Shape).Idx → EReal) (hhi : ∀ y, hi y = v) (hlo : ∀ y, lo y = v)
    (inb1 : ∀ a, (![1035, 0] : Fin 2 → ℕ) a + (![10, 1024] : Fin 2 → ℕ) a ≤ (⟨2, ![1048, 1024]⟩ : Shape).size a)
    (inb2 : ∀ a, (![11, 0] : Fin 2 → ℕ) a + (![1024, 1024] : Fin 2 → ℕ) a ≤ (⟨2, ![1048, 1024]⟩ : Shape).size a)
    (inb3 : ∀ a, (![0, 0] : Fin 2 → ℕ) a + (![11, 1024] : Fin 2 → ℕ) a ≤ (⟨2, ![1048, 1024]⟩ : Shape).size a)
    (L : List (View.Piece (Elt Ideal) (⟨2, ![1048, 1024]⟩ : Shape) .f32)) {i j : ℕ} (hi' : i < 1045) (hj : j < 1024) :
    at2 (View.canon ((⟨Rect.unit ![1035, 0] ![10, 1024] inb1, hi⟩ : View.Piece (Elt Ideal) (⟨2, ![1048, 1024]⟩ : Shape) .f32)
        :: (⟨Rect.unit ![11, 0] ![1024, 1024] inb2, mid⟩ : View.Piece (Elt Ideal) (⟨2, ![1048, 1024]⟩ : Shape) .f32)
        :: (⟨Rect.unit ![0, 0] ![11, 1024] inb3, lo⟩ : View.Piece (Elt Ideal) (⟨2, ![1048, 1024]⟩ : Shape) .f32) :: L)) i j
      = padR v (at2 mid) i j := by
  rw [at2_canon_cons inb1 hi _ (show i < 1048 by omega) hj, at2_canon_cons inb2 mid _ (show i < 1048 by omega) hj,
    at2_canon_cons inb3 lo _ (show i < 1048 by omega) hj]
  unfold padR
  split_ifs with a b c
  all_goals first
    | omega
    | rfl
    | (rw [at2_of_lt hi (i := i - 1035) (j := j - 0) (by omega) (by omega)]; exact hhi _)
    | (rw [at2_of_lt lo (i := i - 0) (j := j - 0) (by omega) (by omega)]; exact hlo _)

/-- A buffer of 1152 columns filled by three stores — `hi = v` on columns `[1035, 1045)`, the image `mid` on columns
    `[11, 1035)`, `lo = v` on columns `[0, 11)`, the last first — reads, on its first 1045 columns, the image padded
    along the columns with `v`, whatever it held before. -/
theorem at2_cols3 (v : EReal) (hi : (⟨2, ![1024, 10]⟩ : Shape).Idx → EReal) (mid : (⟨2, ![1024, 1024]⟩ : Shape).Idx → EReal)
    (lo : (⟨2, ![1024, 11]⟩ : Shape).Idx → EReal) (hhi : ∀ y, hi y = v) (hlo : ∀ y, lo y = v)
    (inb1 : ∀ a, (![0, 1035] : Fin 2 → ℕ) a + (![1024, 10] : Fin 2 → ℕ) a ≤ (⟨2, ![1024, 1152]⟩ : Shape).size a)
    (inb2 : ∀ a, (![0, 11] : Fin 2 → ℕ) a + (![1024, 1024] : Fin 2 → ℕ) a ≤ (⟨2, ![1024, 1152]⟩ : Shape).size a)
    (inb3 : ∀ a, (![0, 0] : Fin 2 → ℕ) a + (![1024, 11] : Fin 2 → ℕ) a ≤ (⟨2, ![1024, 1152]⟩ : Shape).size a)
    (L : List (View.Piece (Elt Ideal) (⟨2, ![1024, 1152]⟩ : Shape) .f32)) {i j : ℕ} (hi' : i < 1024) (hj : j < 1045) :
    at2 (View.canon ((⟨Rect.unit ![0, 1035] ![1024, 10] inb1, hi⟩ : View.Piece (Elt Ideal) (⟨2, ![1024, 1152]⟩ : Shape) .f32)
        :: (⟨Rect.unit ![0, 11] ![1024, 1024] inb2, mid⟩ : View.Piece (Elt Ideal) (⟨2, ![1024, 1152]⟩ : Shape) .f32)
        :: (⟨Rect.unit ![0, 0] ![1024, 11] inb3, lo⟩ : View.Piece (Elt Ideal) (⟨2, ![1024, 1152]⟩ : Shape) .f32) :: L)) i j
      = padC v (at2 mid) i j := by
  rw [at2_canon_cons inb1 hi _ hi' (show j < 1152 by omega), at2_canon_cons inb2 mid _ hi' (show j < 1152 by omega),
    at2_canon_cons inb3 lo _ hi' (show j < 1152 by omega)]
  unfold padC
  split_ifs with a b c
  all_goals first
    | omega
    | rfl
    | (rw [at2_of_lt hi (i := i - 0) (j := j - 1035) (by omega) (by omega)]; exact hhi _)
    | (rw [at2_of_lt lo (i := i - 0) (j := j - 0) (by omega) (by omega)]; exact hlo _)

/-- The one image of a `[1, 1024, 1024]` block as a total function of row and column (zero outside). -/
def at3 (x : (⟨3, ![1, 1024, 1024]⟩ : Shape).Idx → EReal) (i j : ℕ) : EReal :=
  if h : i < 1024 ∧ j < 1024 then x (ix3 (0 : Fin 1) ⟨i, h.1⟩ ⟨j, h.2⟩) else 0

theorem at3_of_lt (x : (⟨3, ![1, 1024, 1024]⟩ : Shape).Idx → EReal) {i j : ℕ} (hi : i < 1024) (hj : j < 1024) :
    at3 x i j = x (ix3 (0 : Fin 1) ⟨i, hi⟩ ⟨j, hj⟩) := dif_pos ⟨hi, hj⟩

/-- The positive infinity of f32 is the top extended real, the negative infinity the bottom one. -/
theorem ofBits_pos_inf : Ideal.ofBits .f32 0x7F800000#32 = (⊤ : EReal) := by simp [Ideal.ofBits, Ideal.ieee]
theorem ofBits_neg_inf : Ideal.ofBits .f32 0xFF800000#32 = (⊥ : EReal) := by simp [Ideal.ofBits, Ideal.ieee]

end Cert.BodyLib
-- ==== Proof.SlidingFold.lean ====
/-
  Minima and maxima along a list and along a window, in a complete linear order.

  * The left fold of `min` from `v` along a list is `v ⊓` the infimum of the list's values
    (`foldl_min`), so from the top element along ALL indices of a finite type it is the infimum
    over the type (`foldl_min_finRange`); dually for `max` from the bottom element.
  * A chain of 21 `min`s of 22 values `a 0, …, a 21`, nested to the left, is the infimum of the
    `a k` over `k : Fin 22` (`chain_min`); dually `chain_max`.
-/
import Mathlib.Order.CompleteLattice.Basic
import Mathlib.Order.CompleteLattice.Finset
import Mathlib.Data.List.FinRange
import Mathlib.Order.Lattice.Nat

namespace Cert.SlidingFold

variable {α : Type*} [CompleteLinearOrder α] {ι : Type*}

/-- The left fold of `min` along a list is the starting value met with the infimum over the list. -/
theorem foldl_min (g : ι → α) (l : List ι) (v : α) :
    l.foldl (fun r n => min r (g n)) v = v ⊓ ⨅ n ∈ l, g n := by
  induction l generalizing v with
  | nil => simp
  | cons a l ih =>
    rw [List.foldl_cons, ih]
    simp only [List.mem_cons, iInf_or, iInf_inf_eq, iInf_iInf_eq_left]
    rw [inf_assoc]

/-- The left fold of `max` along a list is the starting value joined with the supremum over the list. -/
theorem foldl_max (g : ι → α) (l : List ι) (v : α) :
    l.foldl (fun r n => max r (g n)) v = v ⊔ ⨆ n ∈ l, g n := by
  induction l generalizing v with
  | nil => simp
  | cons a l ih =>
    rw [List.foldl_cons, ih]
    simp only [List.mem_cons, iSup_or, iSup_sup_eq, iSup_iSup_eq_left]
    rw [sup_assoc]

/-- From the top element, along every index below `N`, the fold of `min` is the infimum. -/
theorem foldl_min_finRange {N : ℕ} (g : Fin N → α) :
    (List.finRange N).foldl (fun r n => min r (g n)) ⊤ = ⨅ n, g n := by
  rw [foldl_min]; simp

/-- From the bottom element, along every index below `N`, the fold of `max` is the supremum. -/
theorem foldl_max_finRange {N : ℕ} (g : Fin N → α) :
    (List.finRange N).foldl (fun r n => max r (g n)) ⊥ = ⨆ n, g n := by
  rw [foldl_max]; simp

/-- Twenty-one `min`s of twenty-two values, nested to the left, are the infimum of the values. -/
theorem chain_min (a : ℕ → α) :
    min (min (min (min (min (min (min (min (min (min (min (min (min (min (min (min (min (min (min (min (min (a 0) (a 1)) (a 2)) (a 3)) (a 4)) (a 5)) (a 6)) (a 7)) (a 8)) (a 9)) (a 10)) (a 11)) (a 12)) (a 13)) (a 14)) (a 15)) (a 16)) (a 17)) (a 18)) (a 19)) (a 20)) (a 21) = ⨅ k < 22, a k := by
  have h : ∀ n, (⨅ k < n + 1, a k) = (⨅ k < n, a k) ⊓ a n := Nat.iInf_lt_succ a
  rw [h 21, h 20, h 19, h 18, h 17, h 16, h 15, h 14, h 13, h 12, h 11, h 10, h 9, h 8, h 7, h 6, h 5, h 4, h 3, h 2, h 1, h 0]
  simp

/-- Twenty-one `max`s of twenty-two values, nested to the left, are the supremum of the values. -/
theorem chain_max (a : ℕ → α) :
    max (max (max (max (max (max (max (max (max (max (max (max (max (max (max (max (max (max (max (max (max (a 0) (a 1)) (a 2)) (a 3)) (a 4)) (a 5)) (a 6)) (a 7)) (a 8)) (a 9)) (a 10)) (a 11)) (a 12)) (a 13)) (a 14)) (a 15)) (a 16)) (a 17)) (a 18)) (a 19)) (a 20)) (a 21) = ⨆ k < 22, a k := by
  have h : ∀ n, (⨆ k < n + 1, a k) = (⨆ k < n, a k) ⊔ a n := Nat.iSup_lt_succ a
  rw [h 21, h 20, h 19, h 18, h 17, h 16, h 15, h 14, h 13, h 12, h 11, h 10, h 9, h 8, h 7, h 6, h 5, h 4, h 3, h 2, h 1, h 0]
  simp

end Cert.SlidingFold
-- ==== Proof.KernelBody.lean ====
/-
  The kernel's body on one image, read at the extended reals: what it leaves in the output block.

  The body makes four passes through three scratch buffers. Each pass fills a buffer by three stores
  — the padding value before, the current image, the padding value after — and combines 22 shifted
  loads of it, so it is a 22-window minimum (maximum) of the padded image along one axis:
    1. rows, padding the top element:     `Y1 = minR (padR ⊤ X)`
    2. columns, padding the top element:  `E  = minC (padC ⊤ Y1)`   (the erosion)
    3. rows, padding the bottom element:  `D1 = maxR (padR ⊥ E)`
    4. columns, padding the bottom one:   `maxC (padC ⊥ D1)`        (the dilation of the erosion)
  where `X` is the input block's one image. The lemmas below follow the run's intermediate values
  in this order; each load is a read of the buffer's latest stores at the shifted position, and a
  pass's 21 nested `min`s (`max`s) are the infimum (supremum) over the window.
-/
import proofs.«148447_j11879879543238_1_alg».proof.Proof.Gen.KernelIdeal.Frame
import proofs.«148447_j11879879543238_1_alg».proof.Proof.BodyLib
import proofs.«148447_j11879879543238_1_alg».proof.Proof.SlidingFold
import Idealize.ShloMosaic.Lib.ValueLayout

set_option maxRecDepth 16384

noncomputable section

namespace Cert.KernelIdeal.Body

open Cert.KernelIdeal Cert.KernelIdeal.Gen
open Idealize.ShloMosaic Idealize.ShloMosaic.TcCoe Idealize.ShloMosaic.ValueIdx
open Cert.Opening Cert.BodyLib Cert.SlidingFold

variable (c : Dev nD) (arg1 : Memref sig .tc .vmem S1x1024x1024 .f32) (harg1 : arg1.IsWhole)
  (arg3 : Memref sig .tc .vmem S1048x1024 .f32) (arg4 : Memref sig .tc .vmem S1024x1152 .f32)
  (arg5 : Memref sig .tc .vmem S1024x1024 .f32) (x0 : Vec Ideal S1x1024x1024 .f32)

/-! ## The padding values and the re-laid images -/

theorem pay2_const (y : S11x1024.Idx) : k0_pay2 (F := Ideal) y = (⊤ : EReal) := by
  unfold k0_pay2
  simp only [shapeCast_self]
  exact ofBits_pos_inf
theorem pay4_const (y : S10x1024.Idx) : k0_pay4 (F := Ideal) y = (⊤ : EReal) := by
  unfold k0_pay4
  simp only [shapeCast_self]
  exact ofBits_pos_inf
theorem pay7_const (y : S1024x11.Idx) : k0_pay7 (F := Ideal) y = (⊤ : EReal) := by
  unfold k0_pay7
  simp only [shapeCast_self]
  exact ofBits_pos_inf
theorem pay9_const (y : S1024x10.Idx) : k0_pay9 (F := Ideal) y = (⊤ : EReal) := by
  unfold k0_pay9
  simp only [shapeCast_self]
  exact ofBits_pos_inf
theorem pay12_const (y : S11x1024.Idx) : k0_pay12 (F := Ideal) y = (⊥ : EReal) := by
  unfold k0_pay12
  simp only [shapeCast_self]
  exact ofBits_neg_inf
theorem pay14_const (y : S10x1024.Idx) : k0_pay14 (F := Ideal) y = (⊥ : EReal) := by
  unfold k0_pay14
  simp only [shapeCast_self]
  exact ofBits_neg_inf
theorem pay17_const (y : S1024x11.Idx) : k0_pay17 (F := Ideal) y = (⊥ : EReal) := by
  unfold k0_pay17
  simp only [shapeCast_self]
  exact ofBits_neg_inf
theorem pay19_const (y : S1024x10.Idx) : k0_pay19 (F := Ideal) y = (⊥ : EReal) := by
  unfold k0_pay19
  simp only [shapeCast_self]
  exact ofBits_neg_inf

/-- The input block `[1, 1024, 1024]` re-laid as its one image. -/
theorem pay3_apply (v4 : Vec Ideal S1x1024x1024 .f32) (i j : Fin 1024) :
    k0_pay3 (F := Ideal) v4 (ix2 i j) = v4 (ix3 (0 : Fin 1) i j) := by
  unfold k0_pay3
  simp only [shapeCast_self]
  exact shapeCast_1ab_ab_apply v4 _ i j

theorem pay8_eq (v : Vec Ideal S1024x1024 .f32) : k0_pay8 (F := Ideal) v = v := by
  unfold k0_pay8; simp only [shapeCast_self]
theorem pay13_eq (v : Vec Ideal S1024x1024 .f32) : k0_pay13 (F := Ideal) v = v := by
  unfold k0_pay13; simp only [shapeCast_self]
theorem pay18_eq (v : Vec Ideal S1024x1024 .f32) : k0_pay18 (F := Ideal) v = v := by
  unfold k0_pay18; simp only [shapeCast_self]

/-- The output block: the final image with its leading unit axis put back. -/
theorem pay1_apply (v : FVec Ideal S1024x1024 .f32) (u : Fin 1) (i j : Fin 1024) :
    k0_pay1 (F := Ideal) v (ix3 u i j) = v (ix2 i j) := by
  unfold k0_pay1
  exact shapeCast_ab_1ab_apply v _ u i j

theorem hz3 : (![0, 0, 0] : Fin 3 → Nat) = fun _ => 0 := funext fun a => by fin_cases a <;> rfl

/-! ## Pass 1: the minimum over 22 rows of the input image padded with the top element -/

/-- The first padded buffer, on its first 1045 rows: the input image padded along the rows. -/
theorem buf1 {i j : ℕ} (hi : i < 1045) (hj : j < 1024) :
    at2 (n0 := 1048) (n1 := 1024) (View.canon (kernelRun0_A.sl.HS0_3 (F := Ideal) c arg1 harg1 x0)) i j = padR ⊤ (at3 x0) i j := by
  unfold kernelRun0_A.sl.HS0_3
  refine (at2_rows3 ⊤ _ _ _ pay4_const pay2_const _ _ _ [] hi hj).trans ?_
  have hx : View.readAt (Elt Ideal) arg1.view
      (Rect.unit (s := S1x1024x1024) ![0, 0, 0] S1x1024x1024.size inb_S1x1024x1024_S1x1024x1024_0_0_0).toLoadRect (harg1.unread x0) = x0 := by
    simp only [View.readAt_eq_ld, harg1.read_unread, View.ld_unit_zero (S := S1x1024x1024) hz3]
  rw [hx]
  unfold padR
  split_ifs with hp
  · rw [at2_of_lt _ (show i - 11 < 1024 by omega) hj, at3_of_lt _ (show i - 11 < 1024 by omega) hj]
    exact pay3_apply x0 _ _
  · rfl

/-- The first pass's result is its 21 nested minima of the 22 loads. -/
theorem r1_chain (r q : Fin 1024) : kernelRun0_A.sl.r_1 (F := Ideal) c arg1 harg1 arg3 x0 (ix2 r q)
    = min (min (min (min (min (min (min (min (min (min (min (min (min (min (min (min (min (min (min (min (min (kernelRun0_A.sl.v13 (F := Ideal) c arg1 harg1 arg3 x0 (ix2 r q)) (kernelRun0_A.sl.v14 (F := Ideal) c arg1 harg1 arg3 x0 (ix2 r q))) (kernelRun0_A.sl.v16 (F := Ideal) c arg1 harg1 arg3 x0 (ix2 r q))) (kernelRun0_A.sl.v18 (F := Ideal) c arg1 harg1 arg3 x0 (ix2 r q))) (kernelRun0_A.sl.v20 (F := Ideal) c arg1 harg1 arg3 x0 (ix2 r q))) (kernelRun0_A.sl.v22 (F := Ideal) c arg1 harg1 arg3 x0 (ix2 r q))) (kernelRun0_A.sl.v24 (F := Ideal) c arg1 harg1 arg3 x0 (ix2 r q))) (kernelRun0_A.sl.v26 (F := Ideal) c arg1 harg1 arg3 x0 (ix2 r q))) (kernelRun0_A.sl.v28 (F := Ideal) c arg1 harg1 arg3 x0 (ix2 r q))) (kernelRun0_A.sl.v30 (F := Ideal) c arg1 harg1 arg3 x0 (ix2 r q))) (kernelRun0_A.sl.v32 (F := Ideal) c arg1 harg1 arg3 x0 (ix2 r q))) (kernelRun0_A.sl.v34 (F := Ideal) c arg1 harg1 arg3 x0 (ix2 r q))) (kernelRun0_A.sl.v36 (F := Ideal) c arg1 harg1 arg3 x0 (ix2 r q))) (kernelRun0_A.sl.v38 (F := Ideal) c arg1 harg1 arg3 x0 (ix2 r q))) (kernelRun0_A.sl.v40 (F := Ideal) c arg1 harg1 arg3 x0 (ix2 r q))) (kernelRun0_A.sl.v42 (F := Ideal) c arg1 harg1 arg3 x0 (ix2 r q))) (kernelRun0_A.sl.v44 (F := Ideal) c arg1 harg1 arg3 x0 (ix2 r q))) (kernelRun0_A.sl.v46 (F := Ideal) c arg1 harg1 arg3 x0 (ix2 r q))) (kernelRun0_A.sl.v48 (F := Ideal) c arg1 harg1 arg3 x0 (ix2 r q))) (kernelRun0_A.sl.v50 (F := Ideal) c arg1 harg1 arg3 x0 (ix2 r q))) (kernelRun0_A.sl.v52 (F := Ideal) c arg1 harg1 arg3 x0 (ix2 r q))) (kernelRun0_A.sl.v54 (F := Ideal) c arg1 harg1 arg3 x0 (ix2 r q)) := by
  unfold kernelRun0_A.sl.r_1 kernelRun0_A.sl.r k0_pay6 k0_pay5
  simp only [shapeCast_self]
  rfl

theorem r1_apply (r q : Fin 1024) :
    kernelRun0_A.sl.r_1 (F := Ideal) c arg1 harg1 arg3 x0 (ix2 r q) = minR (padR ⊤ (at3 x0)) r q := by
  have hl : ∀ (k : ℕ) (hk : k < 22) (inb : ∀ a, (![k, 0] : Fin 2 → ℕ) a + S1024x1024.size a ≤ S1048x1024.size a),
      arg3.view.readCov (kernelRun0_A.sl.HS0_3 (F := Ideal) c arg1 harg1 x0) (Rect.unit (s := S1048x1024) ![k, 0] S1024x1024.size inb).toLoadRect (ix2 r q)
        = padR ⊤ (at3 x0) (r + k) q := by
    intro k hk inb
    refine (readCov_shift (n0 := 1048) (n1 := 1024) (m0 := 1024) (m1 := 1024) arg3.view _ inb r q).trans ?_
    exact buf1 c arg1 harg1 x0 (by omega) q.isLt
  rw [r1_chain]
  unfold kernelRun0_A.sl.v13 kernelRun0_A.sl.v14 kernelRun0_A.sl.v16 kernelRun0_A.sl.v18 kernelRun0_A.sl.v20 kernelRun0_A.sl.v22 kernelRun0_A.sl.v24 kernelRun0_A.sl.v26 kernelRun0_A.sl.v28 kernelRun0_A.sl.v30 kernelRun0_A.sl.v32 kernelRun0_A.sl.v34 kernelRun0_A.sl.v36 kernelRun0_A.sl.v38 kernelRun0_A.sl.v40 kernelRun0_A.sl.v42 kernelRun0_A.sl.v44 kernelRun0_A.sl.v46 kernelRun0_A.sl.v48 kernelRun0_A.sl.v50 kernelRun0_A.sl.v52 kernelRun0_A.sl.v54
  rw [hl 0 (by omega), hl 1 (by omega), hl 2 (by omega), hl 3 (by omega), hl 4 (by omega), hl 5 (by omega), hl 6 (by omega), hl 7 (by omega), hl 8 (by omega), hl 9 (by omega), hl 10 (by omega), hl 11 (by omega), hl 12 (by omega), hl 13 (by omega), hl 14 (by omega), hl 15 (by omega), hl 16 (by omega), hl 17 (by omega), hl 18 (by omega), hl 19 (by omega), hl 20 (by omega), hl 21 (by omega)]
  exact chain_min (fun k => padR ⊤ (at3 x0) (r + k) q)

/-! ## Pass 2: the minimum over 22 columns of pass 1's image padded with the top element -/

theorem v59_eq : (kernelRun0_A.sl.v59 (F := Ideal) c arg1 harg1 arg3 arg5 x0 : Vec Ideal S1024x1024 .f32) = kernelRun0_A.sl.r_1 c arg1 harg1 arg3 x0 := by
  unfold kernelRun0_A.sl.v59 kernelRun0_A.sl.HS2_1
  exact View.readCov_cons_toLoadRect arg5.view _ _ []

/-- The second padded buffer, on its first 1045 columns: pass 1's image padded along the columns. -/
theorem buf2 {i j : ℕ} (hi : i < 1024) (hj : j < 1045) :
    at2 (n0 := 1024) (n1 := 1152) (View.canon (kernelRun0_A.sl.HS1_3 (F := Ideal) c arg1 harg1 arg3 arg5 x0)) i j
      = padC ⊤ (minR (padR ⊤ (at3 x0))) i j := by
  unfold kernelRun0_A.sl.HS1_3
  refine (at2_cols3 ⊤ _ _ _ pay9_const pay7_const _ _ _ [] hi hj).trans ?_
  refine padC_congr (fun i' j' hi' hj' => ?_) ⊤ hi j
  rw [at2_of_lt _ hi' hj', pay8_eq, v59_eq]
  exact r1_apply c arg1 harg1 arg3 x0 ⟨i', hi'⟩ ⟨j', hj'⟩

/-- The second pass's result (what it stores back) is its 21 nested minima of the 22 loads. -/
theorem v117_chain (r q : Fin 1024) : kernelRun0_A.sl.v117 (F := Ideal) c arg1 harg1 arg3 arg4 arg5 x0 (ix2 r q)
    = min (min (min (min (min (min (min (min (min (min (min (min (min (min (min (min (min (min (min (min (min (kernelRun0_A.sl.v71 (F := Ideal) c arg1 harg1 arg3 arg4 arg5 x0 (ix2 r q)) (kernelRun0_A.sl.v72 (F := Ideal) c arg1 harg1 arg3 arg4 arg5 x0 (ix2 r q))) (kernelRun0_A.sl.v74 (F := Ideal) c arg1 harg1 arg3 arg4 arg5 x0 (ix2 r q))) (kernelRun0_A.sl.v76 (F := Ideal) c arg1 harg1 arg3 arg4 arg5 x0 (ix2 r q))) (kernelRun0_A.sl.v78 (F := Ideal) c arg1 harg1 arg3 arg4 arg5 x0 (ix2 r q))) (kernelRun0_A.sl.v80 (F := Ideal) c arg1 harg1 arg3 arg4 arg5 x0 (ix2 r q))) (kernelRun0_A.sl.v82 (F := Ideal) c arg1 harg1 arg3 arg4 arg5 x0 (ix2 r q))) (kernelRun0_A.sl.v84 (F := Ideal) c arg1 harg1 arg3 arg4 arg5 x0 (ix2 r q))) (kernelRun0_A.sl.v86 (F := Ideal) c arg1 harg1 arg3 arg4 arg5 x0 (ix2 r q))) (kernelRun0_A.sl.v88 (F := Ideal) c arg1 harg1 arg3 arg4 arg5 x0 (ix2 r q))) (kernelRun0_A.sl.v90 (F := Ideal) c arg1 harg1 arg3 arg4 arg5 x0 (ix2 r q))) (kernelRun0_A.sl.v92 (F := Ideal) c arg1 harg1 arg3 arg4 arg5 x0 (ix2 r q))) (kernelRun0_A.sl.v94 (F := Ideal) c arg1 harg1 arg3 arg4 arg5 x0 (ix2 r q))) (kernelRun0_A.sl.v96 (F := Ideal) c arg1 harg1 arg3 arg4 arg5 x0 (ix2 r q))) (kernelRun0_A.sl.v98 (F := Ideal) c arg1 harg1 arg3 arg4 arg5 x0 (ix2 r q))) (kernelRun0_A.sl.v100 (F := Ideal) c arg1 harg1 arg3 arg4 arg5 x0 (ix2 r q))) (kernelRun0_A.sl.v102 (F := Ideal) c arg1 harg1 arg3 arg4 arg5 x0 (ix2 r q))) (kernelRun0_A.sl.v104 (F := Ideal) c arg1 harg1 arg3 arg4 arg5 x0 (ix2 r q))) (kernelRun0_A.sl.v106 (F := Ideal) c arg1 harg1 arg3 arg4 arg5 x0 (ix2 r q))) (kernelRun0_A.sl.v108 (F := Ideal) c arg1 harg1 arg3 arg4 arg5 x0 (ix2 r q))) (kernelRun0_A.sl.v110 (F := Ideal) c arg1 harg1 arg3 arg4 arg5 x0 (ix2 r q))) (kernelRun0_A.sl.v112 (F := Ideal) c arg1 harg1 arg3 arg4 arg5 x0 (ix2 r q)) := by
  unfold kernelRun0_A.sl.v117 kernelRun0_A.sl.HS2_2
  rw [View.readCov_cons_toLoadRect]
  unfold kernelRun0_A.sl.r_2 k0_pay11 k0_pay10
  simp only [shapeCast_self]
  rfl

theorem v117_apply (r q : Fin 1024) :
    kernelRun0_A.sl.v117 (F := Ideal) c arg1 harg1 arg3 arg4 arg5 x0 (ix2 r q) = minC (padC ⊤ (minR (padR ⊤ (at3 x0)))) r q := by
  have hl : ∀ (k : ℕ) (hk : k < 22) (inb : ∀ a, (![0, k] : Fin 2 → ℕ) a + S1024x1024.size a ≤ S1024x1152.size a),
      arg4.view.readCov (kernelRun0_A.sl.HS1_3 (F := Ideal) c arg1 harg1 arg3 arg5 x0) (Rect.unit (s := S1024x1152) ![0, k] S1024x1024.size inb).toLoadRect (ix2 r q)
        = padC ⊤ (minR (padR ⊤ (at3 x0))) r (q + k) := by
    intro k hk inb
    refine (readCov_shift (n0 := 1024) (n1 := 1152) (m0 := 1024) (m1 := 1024) arg4.view _ inb r q).trans ?_
    exact buf2 c arg1 harg1 arg3 arg5 x0 r.isLt (by omega)
  rw [v117_chain]
  unfold kernelRun0_A.sl.v71 kernelRun0_A.sl.v72 kernelRun0_A.sl.v74 kernelRun0_A.sl.v76 kernelRun0_A.sl.v78 kernelRun0_A.sl.v80 kernelRun0_A.sl.v82 kernelRun0_A.sl.v84 kernelRun0_A.sl.v86 kernelRun0_A.sl.v88 kernelRun0_A.sl.v90 kernelRun0_A.sl.v92 kernelRun0_A.sl.v94 kernelRun0_A.sl.v96 kernelRun0_A.sl.v98 kernelRun0_A.sl.v100 kernelRun0_A.sl.v102 kernelRun0_A.sl.v104 kernelRun0_A.sl.v106 kernelRun0_A.sl.v108 kernelRun0_A.sl.v110 kernelRun0_A.sl.v112
  rw [hl 0 (by omega), hl 1 (by omega), hl 2 (by omega), hl 3 (by omega), hl 4 (by omega), hl 5 (by omega), hl 6 (by omega), hl 7 (by omega), hl 8 (by omega), hl 9 (by omega), hl 10 (by omega), hl 11 (by omega), hl 12 (by omega), hl 13 (by omega), hl 14 (by omega), hl 15 (by omega), hl 16 (by omega), hl 17 (by omega), hl 18 (by omega), hl 19 (by omega), hl 20 (by omega), hl 21 (by omega)]
  exact chain_min (fun k => padC ⊤ (minR (padR ⊤ (at3 x0))) r (q + k))

/-! ## Pass 3: the maximum over 22 rows of the erosion padded with the bottom element -/

/-- The first buffer after the third pass's stores, on its first 1045 rows: the erosion padded along the rows. -/
theorem buf3 {i j : ℕ} (hi : i < 1045) (hj : j < 1024) :
    at2 (n0 := 1048) (n1 := 1024) (View.canon (kernelRun0_A.sl.HS0_6 (F := Ideal) c arg1 harg1 arg3 arg4 arg5 x0)) i j
      = padR ⊥ (minC (padC ⊤ (minR (padR ⊤ (at3 x0))))) i j := by
  unfold kernelRun0_A.sl.HS0_6
  refine (at2_rows3 ⊥ _ _ _ pay14_const pay12_const _ _ _ _ hi hj).trans ?_
  refine padR_congr (fun i' j' hi' hj' => ?_) ⊥ i hj
  rw [at2_of_lt _ hi' hj', pay13_eq]
  exact v117_apply c arg1 harg1 arg3 arg4 arg5 x0 ⟨i', hi'⟩ ⟨j', hj'⟩

/-- The third pass's result (what it stores back) is its 21 nested maxima of the 22 loads. -/
theorem v_chain (r q : Fin 1024) : kernelRun0_A.sl.v (F := Ideal) c arg1 harg1 arg3 arg4 arg5 x0 (ix2 r q)
    = max (max (max (max (max (max (max (max (max (max (max (max (max (max (max (max (max (max (max (max (max (kernelRun0_A.sl.v129 (F := Ideal) c arg1 harg1 arg3 arg4 arg5 x0 (ix2 r q)) (kernelRun0_A.sl.v130 (F := Ideal) c arg1 harg1 arg3 arg4 arg5 x0 (ix2 r q))) (kernelRun0_A.sl.v132 (F := Ideal) c arg1 harg1 arg3 arg4 arg5 x0 (ix2 r q))) (kernelRun0_A.sl.v134 (F := Ideal) c arg1 harg1 arg3 arg4 arg5 x0 (ix2 r q))) (kernelRun0_A.sl.v136 (F := Ideal) c arg1 harg1 arg3 arg4 arg5 x0 (ix2 r q))) (kernelRun0_A.sl.v138 (F := Ideal) c arg1 harg1 arg3 arg4 arg5 x0 (ix2 r q))) (kernelRun0_A.sl.v140 (F := Ideal) c arg1 harg1 arg3 arg4 arg5 x0 (ix2 r q))) (kernelRun0_A.sl.v142 (F := Ideal) c arg1 harg1 arg3 arg4 arg5 x0 (ix2 r q))) (kernelRun0_A.sl.v144 (F := Ideal) c arg1 harg1 arg3 arg4 arg5 x0 (ix2 r q))) (kernelRun0_A.sl.v146 (F := Ideal) c arg1 harg1 arg3 arg4 arg5 x0 (ix2 r q))) (kernelRun0_A.sl.v148 (F := Ideal) c arg1 harg1 arg3 arg4 arg5 x0 (ix2 r q))) (kernelRun0_A.sl.v150 (F := Ideal) c arg1 harg1 arg3 arg4 arg5 x0 (ix2 r q))) (kernelRun0_A.sl.v152 (F := Ideal) c arg1 harg1 arg3 arg4 arg5 x0 (ix2 r q))) (kernelRun0_A.sl.v154 (F := Ideal) c arg1 harg1 arg3 arg4 arg5 x0 (ix2 r q))) (kernelRun0_A.sl.v156 (F := Ideal) c arg1 harg1 arg3 arg4 arg5 x0 (ix2 r q))) (kernelRun0_A.sl.v158 (F := Ideal) c arg1 harg1 arg3 arg4 arg5 x0 (ix2 r q))) (kernelRun0_A.sl.v160 (F := Ideal) c arg1 harg1 arg3 arg4 arg5 x0 (ix2 r q))) (kernelRun0_A.sl.v162 (F := Ideal) c arg1 harg1 arg3 arg4 arg5 x0 (ix2 r q))) (kernelRun0_A.sl.v164 (F := Ideal) c arg1 harg1 arg3 arg4 arg5 x0 (ix2 r q))) (kernelRun0_A.sl.v166 (F := Ideal) c arg1 harg1 arg3 arg4 arg5 x0 (ix2 r q))) (kernelRun0_A.sl.v168 (F := Ideal) c arg1 harg1 arg3 arg4 arg5 x0 (ix2 r q))) (kernelRun0_A.sl.v170 (F := Ideal) c arg1 harg1 arg3 arg4 arg5 x0 (ix2 r q)) := by
  unfold kernelRun0_A.sl.v kernelRun0_A.sl.HS2_3
  rw [View.readCov_cons_toLoadRect]
  unfold kernelRun0_A.sl.r_3 k0_pay16 k0_pay15
  simp only [shapeCast_self]
  rfl

theorem v_apply (r q : Fin 1024) :
    kernelRun0_A.sl.v (F := Ideal) c arg1 harg1 arg3 arg4 arg5 x0 (ix2 r q) = maxR (padR ⊥ (minC (padC ⊤ (minR (padR ⊤ (at3 x0)))))) r q := by
  have hl : ∀ (k : ℕ) (hk : k < 22) (inb : ∀ a, (![k, 0] : Fin 2 → ℕ) a + S1024x1024.size a ≤ S1048x1024.size a),
      arg3.view.readCov (kernelRun0_A.sl.HS0_6 (F := Ideal) c arg1 harg1 arg3 arg4 arg5 x0) (Rect.unit (s := S1048x1024) ![k, 0] S1024x1024.size inb).toLoadRect (ix2 r q)
        = padR ⊥ (minC (padC ⊤ (minR (padR ⊤ (at3 x0))))) (r + k) q := by
    intro k hk inb
    refine (readCov_shift (n0 := 1048) (n1 := 1024) (m0 := 1024) (m1 := 1024) arg3.view _ inb r q).trans ?_
    exact buf3 c arg1 harg1 arg3 arg4 arg5 x0 (by omega) q.isLt
  rw [v_chain]
  unfold kernelRun0_A.sl.v129 kernelRun0_A.sl.v130 kernelRun0_A.sl.v132 kernelRun0_A.sl.v134 kernelRun0_A.sl.v136 kernelRun0_A.sl.v138 kernelRun0_A.sl.v140 kernelRun0_A.sl.v142 kernelRun0_A.sl.v144 kernelRun0_A.sl.v146 kernelRun0_A.sl.v148 kernelRun0_A.sl.v150 kernelRun0_A.sl.v152 kernelRun0_A.sl.v154 kernelRun0_A.sl.v156 kernelRun0_A.sl.v158 kernelRun0_A.sl.v160 kernelRun0_A.sl.v162 kernelRun0_A.sl.v164 kernelRun0_A.sl.v166 kernelRun0_A.sl.v168 kernelRun0_A.sl.v170
  rw [hl 0 (by omega), hl 1 (by omega), hl 2 (by omega), hl 3 (by omega), hl 4 (by omega), hl 5 (by omega), hl 6 (by omega), hl 7 (by omega), hl 8 (by omega), hl 9 (by omega), hl 10 (by omega), hl 11 (by omega), hl 12 (by omega), hl 13 (by omega), hl 14 (by omega), hl 15 (by omega), hl 16 (by omega), hl 17 (by omega), hl 18 (by omega), hl 19 (by omega), hl 20 (by omega), hl 21 (by omega)]
  exact chain_max (fun k => padR ⊥ (minC (padC ⊤ (minR (padR ⊤ (at3 x0))))) (r + k) q)

/-! ## Pass 4: the maximum over 22 columns of pass 3's image padded with the bottom element -/

/-- The second buffer after the fourth pass's stores, on its first 1045 columns: pass 3's image padded along the columns. -/
theorem buf4 {i j : ℕ} (hi : i < 1024) (hj : j < 1045) :
    at2 (n0 := 1024) (n1 := 1152) (View.canon (kernelRun0_A.sl.HS1_6 (F := Ideal) c arg1 harg1 arg3 arg4 arg5 x0)) i j
      = padC ⊥ (maxR (padR ⊥ (minC (padC ⊤ (minR (padR ⊤ (at3 x0))))))) i j := by
  unfold kernelRun0_A.sl.HS1_6
  refine (at2_cols3 ⊥ _ _ _ pay19_const pay17_const _ _ _ _ hi hj).trans ?_
  refine padC_congr (fun i' j' hi' hj' => ?_) ⊥ hi j
  rw [at2_of_lt _ hi' hj', pay18_eq]
  exact v_apply c arg1 harg1 arg3 arg4 arg5 x0 ⟨i', hi'⟩ ⟨j', hj'⟩

/-- The fourth pass's result is its 21 nested maxima of the 22 loads. -/
theorem r5_chain (r q : Fin 1024) : kernelRun0_A.sl.r_5 (F := Ideal) c arg1 harg1 arg3 arg4 arg5 x0 (ix2 r q)
    = max (max (max (max (max (max (max (max (max (max (max (max (max (max (max (max (max (max (max (max (max (kernelRun0_A.sl.v187 (F := Ideal) c arg1 harg1 arg3 arg4 arg5 x0 (ix2 r q)) (kernelRun0_A.sl.v188 (F := Ideal) c arg1 harg1 arg3 arg4 arg5 x0 (ix2 r q))) (kernelRun0_A.sl.v190 (F := Ideal) c arg1 harg1 arg3 arg4 arg5 x0 (ix2 r q))) (kernelRun0_A.sl.v192 (F := Ideal) c arg1 harg1 arg3 arg4 arg5 x0 (ix2 r q))) (kernelRun0_A.sl.v194 (F := Ideal) c arg1 harg1 arg3 arg4 arg5 x0 (ix2 r q))) (kernelRun0_A.sl.v196 (F := Ideal) c arg1 harg1 arg3 arg4 arg5 x0 (ix2 r q))) (kernelRun0_A.sl.v198 (F := Ideal) c arg1 harg1 arg3 arg4 arg5 x0 (ix2 r q))) (kernelRun0_A.sl.v200 (F := Ideal) c arg1 harg1 arg3 arg4 arg5 x0 (ix2 r q))) (kernelRun0_A.sl.v202 (F := Ideal) c arg1 harg1 arg3 arg4 arg5 x0 (ix2 r q))) (kernelRun0_A.sl.v204 (F := Ideal) c arg1 harg1 arg3 arg4 arg5 x0 (ix2 r q))) (kernelRun0_A.sl.v206 (F := Ideal) c arg1 harg1 arg3 arg4 arg5 x0 (ix2 r q))) (kernelRun0_A.sl.v208 (F := Ideal) c arg1 harg1 arg3 arg4 arg5 x0 (ix2 r q))) (kernelRun0_A.sl.v210 (F := Ideal) c arg1 harg1 arg3 arg4 arg5 x0 (ix2 r q))) (kernelRun0_A.sl.v212 (F := Ideal) c arg1 harg1 arg3 arg4 arg5 x0 (ix2 r q))) (kernelRun0_A.sl.v214 (F := Ideal) c arg1 harg1 arg3 arg4 arg5 x0 (ix2 r q))) (kernelRun0_A.sl.v216 (F := Ideal) c arg1 harg1 arg3 arg4 arg5 x0 (ix2 r q))) (kernelRun0_A.sl.v218 (F := Ideal) c arg1 harg1 arg3 arg4 arg5 x0 (ix2 r q))) (kernelRun0_A.sl.v220 (F := Ideal) c arg1 harg1 arg3 arg4 arg5 x0 (ix2 r q))) (kernelRun0_A.sl.v222 (F := Ideal) c arg1 harg1 arg3 arg4 arg5 x0 (ix2 r q))) (kernelRun0_A.sl.v224 (F := Ideal) c arg1 harg1 arg3 arg4 arg5 x0 (ix2 r q))) (kernelRun0_A.sl.v226 (F := Ideal) c arg1 harg1 arg3 arg4 arg5 x0 (ix2 r q))) (kernelRun0_A.sl.v228 (F := Ideal) c arg1 harg1 arg3 arg4 arg5 x0 (ix2 r q)) := by
  unfold kernelRun0_A.sl.r_5 kernelRun0_A.sl.r_4 k0_pay21 k0_pay20
  rfl

theorem r5_apply (r q : Fin 1024) :
    kernelRun0_A.sl.r_5 (F := Ideal) c arg1 harg1 arg3 arg4 arg5 x0 (ix2 r q) = passes (at3 x0) r q := by
  have hl : ∀ (k : ℕ) (hk : k < 22) (inb : ∀ a, (![0, k] : Fin 2 → ℕ) a + S1024x1024.size a ≤ S1024x1152.size a),
      arg4.view.readCov (kernelRun0_A.sl.HS1_6 (F := Ideal) c arg1 harg1 arg3 arg4 arg5 x0) (Rect.unit (s := S1024x1152) ![0, k] S1024x1024.size inb).toLoadRect (ix2 r q)
        = padC ⊥ (maxR (padR ⊥ (minC (padC ⊤ (minR (padR ⊤ (at3 x0))))))) r (q + k) := by
    intro k hk inb
    refine (readCov_shift (n0 := 1024) (n1 := 1152) (m0 := 1024) (m1 := 1024) arg4.view _ inb r q).trans ?_
    exact buf4 c arg1 harg1 arg3 arg4 arg5 x0 r.isLt (by omega)
  rw [r5_chain]
  unfold kernelRun0_A.sl.v187 kernelRun0_A.sl.v188 kernelRun0_A.sl.v190 kernelRun0_A.sl.v192 kernelRun0_A.sl.v194 kernelRun0_A.sl.v196 kernelRun0_A.sl.v198 kernelRun0_A.sl.v200 kernelRun0_A.sl.v202 kernelRun0_A.sl.v204 kernelRun0_A.sl.v206 kernelRun0_A.sl.v208 kernelRun0_A.sl.v210 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228
  rw [hl 0 (by omega), hl 1 (by omega), hl 2 (by omega), hl 3 (by omega), hl 4 (by omega), hl 5 (by omega), hl 6 (by omega), hl 7 (by omega), hl 8 (by omega), hl 9 (by omega), hl 10 (by omega), hl 11 (by omega), hl 12 (by omega), hl 13 (by omega), hl 14 (by omega), hl 15 (by omega), hl 16 (by omega), hl 17 (by omega), hl 18 (by omega), hl 19 (by omega), hl 20 (by omega), hl 21 (by omega)]
  exact chain_max (fun k => padC ⊥ (maxR (padR ⊥ (minC (padC ⊤ (minR (padR ⊤ (at3 x0))))))) r (q + k))

/-! ## What the body leaves in the output block -/

/-- The output block after the body: at `(0, r, c)` the dilation of the erosion of the input block's image. -/
theorem out_apply (i : grid0.Coords) (harg3 : arg3.IsWhole) (harg4 : arg4.IsWhole) (harg5 : arg5.IsWhole)
    (arg2 : Memref sig .tc .vmem S1x1024x1024 .f32) (harg2 : arg2.IsWhole) (u : Fin 1) (r q : Fin 1024) :
    out0_A_1 (F := Ideal) c i arg1 harg1 arg2 harg2 arg3 harg3 arg4 harg4 arg5 harg5 x0 (ix3 u r q)
      = dilate2 (erode2 (at3 x0)) r q := by
  unfold out0_A_1
  rw [View.read_writes_eq_canon _ _ _ (cover0_A_1 c i arg1 harg1 arg2 harg2 arg3 harg3 arg4 harg4 arg5 harg5 x0)]
  unfold kernelRun0_A
  dsimp only
  rw [View.canon_unit_zero hz3, pay1_apply, r5_apply, passes_eq]

end Cert.KernelIdeal.Body

end
-- ==== Proof.WindowRead.lean ====
/-
  The host's `reduce_window` read at an index. With a 1 × 1 × 22 × 22 window, unit strides, padding
  (11, 10) on the two image axes and the lattice's top (bottom) element as initial value, the fold
  of `min` (`max`) over the window's 484 positions is the infimum (supremum) over the positions,
  and a position off the image contributes the initial value: at `(b, ch, r, c)` the result is the
  erosion (dilation) of image `(b, ch)` at `(r, c)`.
-/
import Idealize.ShloMosaic.PureOps.Ideal
import Idealize.ShloMosaic.Lib.ValueIdx
import proofs.«148447_j11879879543238_1_alg».proof.Proof.SlidingFold
import proofs.«148447_j11879879543238_1_alg».proof.Proof.Separable

noncomputable section

namespace Cert.WindowRead

open Idealize.ShloMosaic Idealize.ShloMosaic.ValueIdx Cert.Opening Cert.SlidingFold

/-- Image `(b, ch)` of a batch as a total function of row and column (zero outside the image). -/
def at4 (x : (⟨4, ![8, 3, 1024, 1024]⟩ : Shape).Idx → EReal) (b : Fin 8) (ch : Fin 3) (i j : ℕ) : EReal :=
  if h : i < 1024 ∧ j < 1024 then x (ix4 b ch ⟨i, h.1⟩ ⟨j, h.2⟩) else 0

theorem at4_of_lt (x : (⟨4, ![8, 3, 1024, 1024]⟩ : Shape).Idx → EReal) (b : Fin 8) (ch : Fin 3) {i j : ℕ}
    (hi : i < 1024) (hj : j < 1024) : at4 x b ch i j = x (ix4 b ch ⟨i, hi⟩ ⟨j, hj⟩) := dif_pos ⟨hi, hj⟩

/-- The opening of a batch of images, index by index: at `(b, ch, r, c)` the dilation of the erosion of image
    `(b, ch)` at `(r, c)` — the result both programs compute. -/
def opening (x : (⟨4, ![8, 3, 1024, 1024]⟩ : Shape).Idx → EReal) : (⟨4, ![8, 3, 1024, 1024]⟩ : Shape).Idx → EReal :=
  fun j => dilate2 (erode2 (at4 x (j 0) (j 1))) (j 2).val (j 3).val

theorem opening_ix4 (x : (⟨4, ![8, 3, 1024, 1024]⟩ : Shape).Idx → EReal) (b : Fin 8) (ch : Fin 3) (r c : Fin 1024) :
    opening x (ix4 b ch r c) = dilate2 (erode2 (at4 x b ch)) r c := rfl

/-- What the window fold combines at window position `w` of the window at `j`: the operand's
    element where the position falls on the operand, the initial value `v` where it is padding. -/
def winTerm (x : (⟨4, ![8, 3, 1024, 1024]⟩ : Shape).Idx → EReal) (v : EReal) (h : (⟨4, ![8, 3, 1024, 1024]⟩ : Shape).ReduceWindows (![1, 1, 22, 22] : Fin 4 → ℕ) ![1, 1, 1, 1] ![0, 0, 11, 11] ![0, 0, 10, 10] (⟨4, ![8, 3, 1024, 1024]⟩ : Shape)) (j : (⟨4, ![8, 3, 1024, 1024]⟩ : Shape).Idx) (w : (⟨4, ![1, 1, 22, 22]⟩ : Shape).Idx) : EReal :=
  if hin : ∀ a : Fin 4, (![0, 0, 11, 11] : Fin 4 → ℕ) a ≤ (j (a.cast h.1.symm)).val * (![1, 1, 1, 1] : Fin 4 → ℕ) a + (w a).val
      ∧ (j (a.cast h.1.symm)).val * (![1, 1, 1, 1] : Fin 4 → ℕ) a + (w a).val - (![0, 0, 11, 11] : Fin 4 → ℕ) a < (⟨4, ![8, 3, 1024, 1024]⟩ : Shape).size a
    then x (fun a => ⟨(j (a.cast h.1.symm)).val * (![1, 1, 1, 1] : Fin 4 → ℕ) a + (w a).val - (![0, 0, 11, 11] : Fin 4 → ℕ) a, (hin a).2⟩)
    else v

/-- The window reduction is the left fold of its operation over the window's positions in row-major order. -/
theorem reduceWindow_eq_foldl (f : EReal → EReal → EReal) (x : (⟨4, ![8, 3, 1024, 1024]⟩ : Shape).Idx → EReal)
    (init : (⟨0, ![]⟩ : Shape).Idx → EReal) (h : (⟨4, ![8, 3, 1024, 1024]⟩ : Shape).ReduceWindows (![1, 1, 22, 22] : Fin 4 → ℕ) ![1, 1, 1, 1] ![0, 0, 11, 11] ![0, 0, 10, 10] (⟨4, ![8, 3, 1024, 1024]⟩ : Shape)) (hu : 0 < (⟨0, ![]⟩ : Shape).numel) (j : (⟨4, ![8, 3, 1024, 1024]⟩ : Shape).Idx) :
    Host.reduceWindow f ![1, 1, 22, 22] ![1, 1, 1, 1] ![0, 0, 11, 11] ![0, 0, 10, 10] x init h hu j
      = (List.finRange (⟨4, ![1, 1, 22, 22]⟩ : Shape).numel).foldl
          (fun r n => f r (winTerm x (init (Shape.Idx.first hu)) h j ((⟨4, ![1, 1, 22, 22]⟩ : Shape).rowMajor.symm n))) (init (Shape.Idx.first hu)) := rfl

/-- One window position of the minimum: at position `(a0, a1, kh, kw)` of the window at `(b, ch, r, c)`
    the fold's term is the image padded with the top element, at `(r + kh, c + kw)`. -/
theorem winTerm_min (x : (⟨4, ![8, 3, 1024, 1024]⟩ : Shape).Idx → EReal) (h : (⟨4, ![8, 3, 1024, 1024]⟩ : Shape).ReduceWindows (![1, 1, 22, 22] : Fin 4 → ℕ) ![1, 1, 1, 1] ![0, 0, 11, 11] ![0, 0, 10, 10] (⟨4, ![8, 3, 1024, 1024]⟩ : Shape))
    (b : Fin 8) (ch : Fin 3) (r c : Fin 1024) (a0 a1 : Fin 1) (kh kw : Fin 22) :
    winTerm x ⊤ h (ix4 b ch r c) (ix4 a0 a1 kh kw) = pad2 ⊤ (at4 x b ch) (r + kh) (c + kw) := by
  have ha0 : a0.val = 0 := by omega
  have ha1 : a1.val = 0 := by omega
  unfold winTerm pad2
  by_cases hp : (11 ≤ r.val + kh.val ∧ r.val + kh.val < 1035) ∧ (11 ≤ c.val + kw.val ∧ c.val + kw.val < 1035)
  · rw [if_pos hp, dif_pos (fun a => by
      match a with
      | ⟨0, _⟩ => exact ⟨Nat.zero_le _, show b.val * 1 + a0.val - 0 < 8 by omega⟩
      | ⟨1, _⟩ => exact ⟨Nat.zero_le _, show ch.val * 1 + a1.val - 0 < 3 by omega⟩
      | ⟨2, _⟩ => exact ⟨show 11 ≤ r.val * 1 + kh.val by omega, show r.val * 1 + kh.val - 11 < 1024 by omega⟩
      | ⟨3, _⟩ => exact ⟨show 11 ≤ c.val * 1 + kw.val by omega, show c.val * 1 + kw.val - 11 < 1024 by omega⟩)]
    unfold at4
    rw [dif_pos ⟨show r.val + kh.val - 11 < 1024 by omega, show c.val + kw.val - 11 < 1024 by omega⟩]
    refine congrArg x (funext fun a => ?_)
    match a with
    | ⟨0, _⟩ => exact Fin.ext (show b.val * 1 + a0.val - 0 = b.val by omega)
    | ⟨1, _⟩ => exact Fin.ext (show ch.val * 1 + a1.val - 0 = ch.val by omega)
    | ⟨2, _⟩ => exact Fin.ext (show r.val * 1 + kh.val - 11 = r.val + kh.val - 11 by omega)
    | ⟨3, _⟩ => exact Fin.ext (show c.val * 1 + kw.val - 11 = c.val + kw.val - 11 by omega)
  · rw [if_neg hp]
    refine dif_neg fun hin => hp ?_
    have h2 := hin ⟨2, by omega⟩
    have h3 := hin ⟨3, by omega⟩
    have h2a : 11 ≤ r.val * 1 + kh.val := h2.1
    have h2b : r.val * 1 + kh.val - 11 < 1024 := h2.2
    have h3a : 11 ≤ c.val * 1 + kw.val := h3.1
    have h3b : c.val * 1 + kw.val - 11 < 1024 := h3.2
    omega

/-- The host's 22 × 22 window minimum (padding 11 before and 10 after on the two image axes, initial
    value the top element) reads, at `(b, ch, r, c)`, the erosion of image `(b, ch)` at `(r, c)`. -/
theorem reduceWindow_min_apply (x : (⟨4, ![8, 3, 1024, 1024]⟩ : Shape).Idx → EReal)
    (init : (⟨0, ![]⟩ : Shape).Idx → EReal) (hinit : ∀ i, init i = ⊤) (h : (⟨4, ![8, 3, 1024, 1024]⟩ : Shape).ReduceWindows (![1, 1, 22, 22] : Fin 4 → ℕ) ![1, 1, 1, 1] ![0, 0, 11, 11] ![0, 0, 10, 10] (⟨4, ![8, 3, 1024, 1024]⟩ : Shape))
    (hu : 0 < (⟨0, ![]⟩ : Shape).numel) (b : Fin 8) (ch : Fin 3) (r c : Fin 1024) :
    Host.reduceWindow (FloatOps.minimumf (F := Ideal) (φ := .f32)) ![1, 1, 22, 22] ![1, 1, 1, 1] ![0, 0, 11, 11] ![0, 0, 10, 10]
        x init h hu (ix4 b ch r c)
      = erode2 (at4 x b ch) r c := by
  rw [reduceWindow_eq_foldl, hinit]
  refine (foldl_min_finRange (fun n => winTerm x ⊤ h (ix4 b ch r c) ((⟨4, ![1, 1, 22, 22]⟩ : Shape).rowMajor.symm n))).trans ?_
  rw [Equiv.iInf_comp (g := winTerm x ⊤ h (ix4 b ch r c)) (⟨4, ![1, 1, 22, 22]⟩ : Shape).rowMajor.symm]
  unfold erode2
  apply le_antisymm
  · refine le_iInf₂ fun kh hkh => le_iInf₂ fun kw hkw => ?_
    refine (iInf_le _ (ix4 (0 : Fin 1) (0 : Fin 1) (⟨kh, hkh⟩ : Fin 22) (⟨kw, hkw⟩ : Fin 22))).trans (le_of_eq ?_)
    exact winTerm_min x h b ch r c 0 0 ⟨kh, hkh⟩ ⟨kw, hkw⟩
  · refine le_iInf fun w => ?_
    rw [eq_ix4 w]
    refine iInf₂_le_of_le (w 2).val (w 2).isLt (iInf₂_le_of_le (w 3).val (w 3).isLt (le_of_eq ?_))
    exact (winTerm_min x h b ch r c (w 0) (w 1) (w 2) (w 3)).symm

/-- One window position of the maximum: at position `(a0, a1, kh, kw)` of the window at `(b, ch, r, c)`
    the fold's term is the image padded with the bottom element, at `(r + kh, c + kw)`. -/
theorem winTerm_max (x : (⟨4, ![8, 3, 1024, 1024]⟩ : Shape).Idx → EReal) (h : (⟨4, ![8, 3, 1024, 1024]⟩ : Shape).ReduceWindows (![1, 1, 22, 22] : Fin 4 → ℕ) ![1, 1, 1, 1] ![0, 0, 11, 11] ![0, 0, 10, 10] (⟨4, ![8, 3, 1024, 1024]⟩ : Shape))
    (b : Fin 8) (ch : Fin 3) (r c : Fin 1024) (a0 a1 : Fin 1) (kh kw : Fin 22) :
    winTerm x ⊥ h (ix4 b ch r c) (ix4 a0 a1 kh kw) = pad2 ⊥ (at4 x b ch) (r + kh) (c + kw) := by
  have ha0 : a0.val = 0 := by omega
  have ha1 : a1.val = 0 := by omega
  unfold winTerm pad2
  by_cases hp : (11 ≤ r.val + kh.val ∧ r.val + kh.val < 1035) ∧ (11 ≤ c.val + kw.val ∧ c.val + kw.val < 1035)
  · rw [if_pos hp, dif_pos (fun a => by
      match a with
      | ⟨0, _⟩ => exact ⟨Nat.zero_le _, show b.val * 1 + a0.val - 0 < 8 by omega⟩
      | ⟨1, _⟩ => exact ⟨Nat.zero_le _, show ch.val * 1 + a1.val - 0 < 3 by omega⟩
      | ⟨2, _⟩ => exact ⟨show 11 ≤ r.val * 1 + kh.val by omega, show r.val * 1 + kh.val - 11 < 1024 by omega⟩
      | ⟨3, _⟩ => exact ⟨show 11 ≤ c.val * 1 + kw.val by omega, show c.val * 1 + kw.val - 11 < 1024 by omega⟩)]
    unfold at4
    rw [dif_pos ⟨show r.val + kh.val - 11 < 1024 by omega, show c.val + kw.val - 11 < 1024 by omega⟩]
    refine congrArg x (funext fun a => ?_)
    match a with
    | ⟨0, _⟩ => exact Fin.ext (show b.val * 1 + a0.val - 0 = b.val by omega)
    | ⟨1, _⟩ => exact Fin.ext (show ch.val * 1 + a1.val - 0 = ch.val by omega)
    | ⟨2, _⟩ => exact Fin.ext (show r.val * 1 + kh.val - 11 = r.val + kh.val - 11 by omega)
    | ⟨3, _⟩ => exact Fin.ext (show c.val * 1 + kw.val - 11 = c.val + kw.val - 11 by omega)
  · rw [if_neg hp]
    refine dif_neg fun hin => hp ?_
    have h2 := hin ⟨2, by omega⟩
    have h3 := hin ⟨3, by omega⟩
    have h2a : 11 ≤ r.val * 1 + kh.val := h2.1
    have h2b : r.val * 1 + kh.val - 11 < 1024 := h2.2
    have h3a : 11 ≤ c.val * 1 + kw.val := h3.1
    have h3b : c.val * 1 + kw.val - 11 < 1024 := h3.2
    omega

/-- The host's 22 × 22 window maximum (padding 11 before and 10 after on the two image axes, initial
    value the bottom element) reads, at `(b, ch, r, c)`, the dilation of image `(b, ch)` at `(r, c)`. -/
theorem reduceWindow_max_apply (x : (⟨4, ![8, 3, 1024, 1024]⟩ : Shape).Idx → EReal)
    (init : (⟨0, ![]⟩ : Shape).Idx → EReal) (hinit : ∀ i, init i = ⊥) (h : (⟨4, ![8, 3, 1024, 1024]⟩ : Shape).ReduceWindows (![1, 1, 22, 22] : Fin 4 → ℕ) ![1, 1, 1, 1] ![0, 0, 11, 11] ![0, 0, 10, 10] (⟨4, ![8, 3, 1024, 1024]⟩ : Shape))
    (hu : 0 < (⟨0, ![]⟩ : Shape).numel) (b : Fin 8) (ch : Fin 3) (r c : Fin 1024) :
    Host.reduceWindow (FloatOps.maximumf (F := Ideal) (φ := .f32)) ![1, 1, 22, 22] ![1, 1, 1, 1] ![0, 0, 11, 11] ![0, 0, 10, 10]
        x init h hu (ix4 b ch r c)
      = dilate2 (at4 x b ch) r c := by
  rw [reduceWindow_eq_foldl, hinit]
  refine (foldl_max_finRange (fun n => winTerm x ⊥ h (ix4 b ch r c) ((⟨4, ![1, 1, 22, 22]⟩ : Shape).rowMajor.symm n))).trans ?_
  rw [Equiv.iSup_comp (g := winTerm x ⊥ h (ix4 b ch r c)) (⟨4, ![1, 1, 22, 22]⟩ : Shape).rowMajor.symm]
  unfold dilate2
  apply le_antisymm
  · refine iSup_le fun w => ?_
    rw [eq_ix4 w]
    refine le_iSup₂_of_le (w 2).val (w 2).isLt (le_iSup₂_of_le (w 3).val (w 3).isLt (le_of_eq ?_))
    exact winTerm_max x h b ch r c (w 0) (w 1) (w 2) (w 3)
  · refine iSup₂_le fun kh hkh => iSup₂_le fun kw hkw => ?_
    refine le_trans (le_of_eq ?_) (le_iSup _ (ix4 (0 : Fin 1) (0 : Fin 1) (⟨kh, hkh⟩ : Fin 22) (⟨kw, hkw⟩ : Fin 22)))
    exact (winTerm_max x h b ch r c 0 0 ⟨kh, hkh⟩ ⟨kw, hkw⟩).symm

end Cert.WindowRead
-- ==== Proof.KernelArray.lean ====
/-
  The kernel's program at the extended reals: its result array is the opening of its argument.

  @main re-lays the argument `[8, 3, 1024, 1024]` as `[24, 1024, 1024]`, runs the body once per image
  (grid point `t` reads image `t` and writes image `t` of the result, every block fetched and
  written back whole), and re-lays the result as `[8, 3, 1024, 1024]`. Image `t` of the re-laid
  argument is image `(t / 3, t % 3)` of the argument; the body leaves the dilation of the erosion of
  its image; the 24 blocks cover the result; so the re-laid result is the opening, index by index.
-/
import proofs.«148447_j11879879543238_1_alg».proof.Proof.KernelBody
import proofs.«148447_j11879879543238_1_alg».proof.Proof.WindowRead
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen
open Idealize.ShloMosaic Idealize.ShloMosaic.TcCoe Idealize.ShloMosaic.ValueIdx Idealize.SL.Sem
open Idealize.ShloMosaic.Pipeline (Dat)
open Cert.Opening Cert.BodyLib Cert.WindowRead

variable (m : (ℓ : Loc nD τ sig) → Buf (Elt Ideal) ℓ) (ρ : Dev nD → PrngReg)

theorem hN : cfg0.N = 24 := N_0

/-- Grid point `t` reads and writes image `t`: both windows' block index is `(t, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The result of the region, as contents of its array `[24, 1024, 1024]`: the opening re-laid. -/
def G1 (c : Dev nD) : Buf (Elt Ideal) ((c : Thread nD τ).loc main_v1) :=
  shapeCast S24x1024x1024 (opening (m ((c : Thread nD τ).loc main_arg0))) shapeCasts_S8x3x1024x1024_S24x1024x1024

/-- The region finds, in its input array, the argument re-laid. -/
theorem V_v0 (c : Dev nD) : (V m c main_v0 : S24x1024x1024.Idx → EReal)
    = shapeCast S24x1024x1024 (m ((c : Thread nD τ).loc main_arg0)) shapeCasts_S8x3x1024x1024_S24x1024x1024 := by
  show StableHlo.after hostOps0 (fun b => m (c, b)) (Proc.devRef .tc main_v0) = _
  after_results
  rfl

/-- Image `n` of a re-laid batch is image `(n / 3, n % 3)` of the batch. -/
theorem relaid_apply (x : S8x3x1024x1024.Idx → EReal) (n : Fin 24) (i j : Fin 1024) :
    shapeCast S24x1024x1024 x shapeCasts_S8x3x1024x1024_S24x1024x1024 (ix3 n i j)
      = x (ix4 (⟨n.val / 3, by omega⟩ : Fin 8) (⟨n.val % 3, by omega⟩ : Fin 3) i j) :=
  shapeCast_apply x _ _ _ (by
    rw [Shape.rowMajor_val_four, Shape.rowMajor_val_three]
    show ((n.val / 3 * 3 + n.val % 3) * 1024 + i.val) * 1024 + j.val = (n.val * 1024 + i.val) * 1024 + j.val
    omega)

/-- The input block at point `t` is image `t` of the region's input array. -/
theorem iblk_apply (c : Dev nD) (t : Fin cfg0.N) (u : Fin 1) (i j : Fin 1024) :
    iblk m c 0 t (ix3 u i j) = V m c main_v0 (ix3 (⟨t.val, by have := t.isLt; have := hN; omega⟩ : Fin 24) i j) := by
  obtain ⟨e0, e1, e2, -, -, -⟩ := idx_facts t
  unfold iblk
  rw [View.read_apply]
  show V m c main_v0 _ = V m c main_v0 _
  refine congrArg (V m c main_v0) (funext fun a => Fin.ext ?_)
  have hu : u.val = 0 := by omega
  match a with
  | ⟨0, _⟩ => show win0_0.index t (0 : Fin 3) * 1 + 1 * u.val = t.val; omega
  | ⟨1, _⟩ => show win0_0.index t (1 : Fin 3) * 1024 + 1 * i.val = i.val; omega
  | ⟨2, _⟩ => show win0_0.index t (2 : Fin 3) * 1024 + 1 * j.val = j.val; omega

/-- The image the body reads at point `t` is image `(t / 3, t % 3)` of the argument. -/
theorem image_eq (c : Dev nD) (t : Fin cfg0.N) :
    at3 (iblk m c 0 t) = at4 (m ((c : Thread nD τ).loc main_arg0))
      (⟨t.val / 3, by have := t.isLt; have := hN; omega⟩ : Fin 8) (⟨t.val % 3, by omega⟩ : Fin 3) := by
  funext i j
  unfold at3 at4
  split_ifs with h
  · rw [iblk_apply, V_v0]
    exact relaid_apply _ _ _ _
  · rfl

/-- What the body leaves in the output block at point `t`: the opening of image `(t / 3, t % 3)`. -/
theorem outsAt_apply (c : Dev nD) (t : Fin cfg0.N) (u : Fin 1) (r q : Fin 1024) :
    outsAt0 m c t (ix3 u r q) = dilate2 (erode2 (at3 (iblk m c 0 t))) r q := by
  unfold outsAt0
  exact Body.out_apply c (ms0_0 t) (hs0_0 t) scM0_0 scM0_1 scM0_2 (iblk m c 0 t) (grid0.coords t)
    (Memref.isWhole_whole _) (Memref.isWhole_whole _) (Memref.isWhole_whole _) (ms0_1 t) (hs0_1 t) u r q

/-- What point `t` writes back is block `t` of the re-laid opening. -/
theorem flushed_eq (c : Dev nD) (t : Fin cfg0.N) :
    (dats m 0 c).flushed 1 t = ((cfg0.win 1).blk t).view.read (Elt Ideal) (G1 m c) := by
  show (cfg0.win 1).cut (grid0.coords t) ((dats m 0 c).after 1 t) = _
  rw [after0_1]
  obtain ⟨-, -, -, e0, e1, e2⟩ := idx_facts t
  have ht : t.val < 24 := by have := t.isLt; have := hN; omega
  funext y
  obtain ⟨u, r, q, rfl⟩ : ∃ (u : Fin 1) (r q : Fin 1024), y = ix3 u r q := ⟨y 0, y 1, y 2, eq_ix3 y⟩
  have hu : u.val = 0 := by omega
  rw [View.read_apply]
  have he : ((cfg0.win 1).blk t).view.emb (ix3 u r q) = (ix3 (⟨t.val, ht⟩ : Fin 24) r q : S24x1024x1024.Idx) := by
    funext a
    apply Fin.ext
    match a with
    | ⟨0, _⟩ => show win0_1.index t (0 : Fin 3) * 1 + 1 * u.val = t.val; omega
    | ⟨1, _⟩ => show win0_1.index t (1 : Fin 3) * 1024 + 1 * r.val = r.val; omega
    | ⟨2, _⟩ => show win0_1.index t (2 : Fin 3) * 1024 + 1 * q.val = q.val; omega
  rw [he]
  unfold G1
  rw [relaid_apply, opening_ix4, ← image_eq m c t]
  exact outsAt_apply m c t u r q

/-- An index of the result is in point `t`'s block iff its image coordinate is `t`'s. -/
theorem mem_blk (t : Fin cfg0.N) (i : S24x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v1).slice (win0_1.rect t)).set ↔ _
  rw [View.set_slice_whole, Rect.mem_set_unit]
  exact Iff.rfl

/-- Every index of the result is in the block of the point that handles its image. -/
theorem cover (i : S24x1024x1024.Idx) :
    ∃ t : Fin cfg0.N, (cfg0.win 1).flush t = true ∧ i ∈ ((cfg0.win 1).blk t).view.set := by
  have hi0 : (i 0).val < 24 := (i 0).isLt
  have hi1 : (i 1).val < 1024 := (i 1).isLt
  have hi2 : (i 2).val < 1024 := (i 2).isLt
  obtain ⟨t, htv⟩ : ∃ t : Fin cfg0.N, t.val = (i 0).val := ⟨⟨(i 0).val, by have := hN; omega⟩, rfl⟩
  refine ⟨t, flush0_1 t, ?_⟩
  rw [mem_blk]
  obtain ⟨-, -, -, e0, e1, e2⟩ := idx_facts t
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 1024 ≤ (i 1).val ∧ (i 1).val < win0_1.index t (1 : Fin 3) * 1024 + 1024
    omega
  | ⟨2, _⟩ =>
    show win0_1.index t (2 : Fin 3) * 1024 ≤ (i 2).val ∧ (i 2).val < win0_1.index t (2 : Fin 3) * 1024 + 1024
    omega

/-- The region's result array after the run: the re-laid opening. -/
theorem final (c : Dev nD) : (dats m 0 c).arrAt 1 cfg0.N = G1 m c :=
  (dats m 0 c).arrAt_eq_of_cover 1 (G1 m c) (fun t _ => flushed_eq m c t) cover

/-- @main's result, after the re-laying that follows the region: the opening of the argument. -/
theorem tail_eq (c : Dev nD) :
    Pipeline.afterTail₀ cfgs (dats m) 0 (V0 m) [hostOps1] c main_v2 = opening (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = G1 m c := (Pipeline.withArrays_arr spec0 launch0.win.arr_inj c _ _ 1).trans (final m c)
  rw [hw]
  funext i
  show shapeCast S8x3x1024x1024 (G1 m c) shapeCasts_S24x1024x1024_S8x3x1024x1024 i = _
  unfold G1
  exact congrFun (shapeCast_shapeCast (s := S8x3x1024x1024) (t := S24x1024x1024) (opening (m ((c : Thread nD τ).loc main_arg0)))
    shapeCasts_S8x3x1024x1024_S24x1024x1024 shapeCasts_S24x1024x1024_S8x3x1024x1024) i

/-- The kernel's run, read: every weakly fair execution terminates with the result array at the opening of the
    argument and the argument unchanged. -/
theorem run : θ_run defs (onTc (τ := τ) (main (F := Ideal))) ⟨m, fun _ => 0, ρ⟩ fun r => ∀ c : Dev nD,
      r.2.mem ((c.tc : Thread nD τ).loc main_v2) = opening (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.ArrayValue

end
-- ==== Proof.RefValue.lean ====
/-
  The reference at the extended reals: its result is the opening of its argument.

  The reference applies the host's 22 × 22 window minimum with initial value +∞ and then the window
  maximum with initial value −∞, both padded (11, 10) on the image axes: the erosion, then the
  dilation of the erosion, image by image. The dilation reads the erosion only on the image, where
  the first stage is the erosion index by index.
-/
import proofs.«148447_j11879879543238_1_alg».proof.Proof.Gen.ReferenceIdeal.Read
import proofs.«148447_j11879879543238_1_alg».proof.Proof.WindowRead
import proofs.«148447_j11879879543238_1_alg».proof.Proof.BodyLib

noncomputable section

namespace Cert.ReferenceIdeal.RefValue

open Cert.ReferenceIdeal Cert.ReferenceIdeal.Gen Cert.ReferenceIdeal.Read
open Idealize.ShloMosaic Idealize.ShloMosaic.ValueIdx
open Cert.Opening Cert.WindowRead Cert.BodyLib

/-- The first window's initial value is the top element. -/
theorem init_min (i : S_.Idx) : val_main_v0 (F := Ideal) i = (⊤ : EReal) := by
  rw [val_main_v0_apply, val_main_cst_apply]
  exact ofBits_pos_inf

/-- The second window's initial value is the bottom element. -/
theorem init_max (i : S_.Idx) : val_main_v2 (F := Ideal) i = (⊥ : EReal) := by
  rw [val_main_v2_apply, val_main_cst_0_apply]
  exact ofBits_neg_inf

/-- The reference's result is the opening of its argument. -/
theorem result_eq (x0 : (⟨S8x3x1024x1024, .f32⟩ : BufTy).Contents (Elt Ideal)) :
    val_main_v3 (F := Ideal) x0 = opening x0 := by
  funext j
  obtain ⟨b, ch, r, c, rfl⟩ : ∃ (b : Fin 8) (ch : Fin 3) (r c : Fin 1024), j = ix4 b ch r c :=
    ⟨j 0, j 1, j 2, j 3, eq_ix4 j⟩
  rw [opening_ix4]
  unfold val_main_v3
  refine (reduceWindow_max_apply (val_main_v1 (F := Ideal) x0) (val_main_v2 (F := Ideal)) init_max _ _ b ch r c).trans ?_
  refine dilate2_congr (fun i j hi hj => ?_) r c
  rw [at4_of_lt _ _ _ hi hj]
  unfold val_main_v1
  exact reduceWindow_min_apply x0 (val_main_v0 (F := Ideal)) init_min _ _ b ch ⟨i, hi⟩ ⟨j, hj⟩

end Cert.ReferenceIdeal.RefValue

end
-- ==== Proof.lean ====
/-
  Morphological opening of a batch of images by a flat 22 × 22 structuring element, two ways.

  The kernel erodes and dilates separably: per image, a 22-window minimum along the rows of the
  image padded with +∞ (11 rows before, 10 after), then along the columns of that result padded
  likewise; then the same two passes with maxima and −∞. The reference takes, per image, the
  minimum over the 22 × 22 window of the image padded with +∞ on both axes, then the maximum over
  the window of that result padded with −∞. Over the extended reals, which are a complete linear
  order, the two agree index by index: a window position off the image along the columns
  contributes the top element whatever the rows are, so padding commutes with the infimum over the
  rows and the two one-dimensional infima are the infimum over the square; dually for the suprema.
  No arithmetic is involved, so finiteness of the input is not used.

  `Cert.WindowRead.opening` is the common result as one function of the argument array. The kernel's
  run ends at it (Proof/KernelArray.lean, over the body's four passes in Proof/KernelBody.lean); the
  reference's two window reductions are it (Proof/RefValue.lean over Proof/WindowRead.lean); the
  lattice facts are in Proof/Separable.lean and Proof/SlidingFold.lean. The three frames are the
  generated frame runs, and the idealization rewrote nothing.
-/
import proofs.«148447_j11879879543238_1_alg».proof.Defs
import proofs.«148447_j11879879543238_1_alg».proof.Proof.Gen.Kernel
import proofs.«148447_j11879879543238_1_alg».proof.Proof.Gen.Kernel.Skeleton
import proofs.«148447_j11879879543238_1_alg».proof.Proof.Gen.Kernel.Launch
import proofs.«148447_j11879879543238_1_alg».proof.Proof.Gen.Kernel.Points
import proofs.«148447_j11879879543238_1_alg».proof.Proof.Gen.Kernel.Frame
import proofs.«148447_j11879879543238_1_alg».proof.Proof.Gen.KernelIdeal
import proofs.«148447_j11879879543238_1_alg».proof.Proof.Gen.KernelIdeal.Skeleton
import proofs.«148447_j11879879543238_1_alg».proof.Proof.Gen.KernelIdeal.Launch
import proofs.«148447_j11879879543238_1_alg».proof.Proof.Gen.KernelIdeal.Points
import proofs.«148447_j11879879543238_1_alg».proof.Proof.Gen.KernelIdeal.Frame
import proofs.«148447_j11879879543238_1_alg».proof.Proof.Gen.ReferenceIdeal
import proofs.«148447_j11879879543238_1_alg».proof.Proof.Gen.ReferenceIdeal.Run
import proofs.«148447_j11879879543238_1_alg».proof.Proof.Gen.ReferenceIdeal.Read
import proofs.«148447_j11879879543238_1_alg».proof.Proof.Gen.Pre_finite_inputs
import proofs.«148447_j11879879543238_1_alg».proof.Proof.KernelArray
import proofs.«148447_j11879879543238_1_alg».proof.Proof.RefValue
import Idealize.ShloMosaic.Adequacy
import Idealize.ShloMosaic.Init

noncomputable section

namespace Cert.Proof

open Idealize.ShloMosaic Idealize.SL.Sem

/-- The word-level kernel runs and keeps its argument: the generated frame run. -/
theorem frame_k : Cert.frame_Kernel := fun m ρ _ => Cert.Kernel.Gen.frame m ρ

/-- The idealized kernel runs and keeps its argument: the generated frame run. -/
theorem frame_ki : Cert.frame_KernelIdeal := fun m ρ _ => Cert.KernelIdeal.Gen.frame m ρ

/-- The idealized reference runs and keeps its argument: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the opening of the (shared) argument. -/
theorem algebraic : Cert.algebraic_KernelIdeal_ReferenceIdeal := by
  intro m ρ m' ρ' _ hagree
  refine ⟨fun c => Cert.WindowRead.opening (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
